-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x625000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x625000 : Shape := ⟨2, ![1, 625000]⟩
abbrev S625000 : Shape := ⟨1, ![625000]⟩
abbrev S_ : Shape := ⟨0, ![]⟩
abbrev S50000 : Shape := ⟨1, ![50000]⟩
abbrev S625000x1 : Shape := ⟨2, ![625000, 1]⟩
abbrev S50000x1 : Shape := ⟨2, ![50000, 1]⟩
abbrev S625000x128 : Shape := ⟨2, ![625000, 128]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x625000, .i32⟩
  | .hbm, ⟨12, _⟩ => ⟨S625000, .i32⟩
  | .hbm, ⟨13, _⟩ => ⟨S1x625000, .i32⟩
  | .hbm, ⟨14, _⟩ => ⟨S625000, .i32⟩
  | .hbm, ⟨15, _⟩ => ⟨S_, .f32⟩
  | .hbm, ⟨16, _⟩ => ⟨S625000, .f32⟩
  | .hbm, ⟨17, _⟩ => ⟨S_, .f32⟩
  | .hbm, ⟨18, _⟩ => ⟨S50000, .f32⟩
  | .hbm, ⟨19, _⟩ => ⟨S625000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S625000, .i32⟩
  | .hbm, ⟨30, _⟩ => ⟨S625000, .i1⟩
  | .hbm, ⟨31, _⟩ => ⟨S_, .i32⟩
  | .hbm, ⟨32, _⟩ => ⟨S625000, .i32⟩
  | .hbm, ⟨33, _⟩ => ⟨S625000, .i32⟩
  | .hbm, ⟨34, _⟩ => ⟨S625000, .i32⟩
  | .hbm, ⟨35, _⟩ => ⟨S625000x1, .i32⟩
  | .hbm, ⟨36, _⟩ => ⟨S625000x128, .f32⟩
  | .hbm, ⟨37, _⟩ => ⟨S_, .f32⟩
  | .hbm, ⟨38, _⟩ => ⟨S50000x128, .f32⟩
  | .hbm, ⟨39, _⟩ => ⟨S625000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S625000, .i32⟩
  | .hbm, ⟨47, _⟩ => ⟨S625000, .i1⟩
  | .hbm, ⟨48, _⟩ => ⟨S_, .i32⟩
  | .hbm, ⟨49, _⟩ => ⟨S625000, .i32⟩
  | .hbm, ⟨50, _⟩ => ⟨S625000, .i32⟩
  | .hbm, ⟨51, _⟩ => ⟨S625000, .i32⟩
  | .hbm, ⟨52, _⟩ => ⟨S625000x1, .i32⟩
  | .hbm, ⟨53, _⟩ => ⟨S625000x128, .f32⟩
  | .hbm, ⟨54, _⟩ => ⟨S_, .f32⟩
  | .hbm, ⟨55, _⟩ => ⟨S50000x128, .f32⟩
  | .hbm, ⟨56, _⟩ => ⟨S625000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S625000, .i32⟩
  | .hbm, ⟨64, _⟩ => ⟨S625000, .i1⟩
  | .hbm, ⟨65, _⟩ => ⟨S_, .i32⟩
  | .hbm, ⟨66, _⟩ => ⟨S625000, .i32⟩
  | .hbm, ⟨67, _⟩ => ⟨S625000, .i32⟩
  | .hbm, ⟨68, _⟩ => ⟨S625000, .i32⟩
  | .hbm, ⟨69, _⟩ => ⟨S625000x1, .i32⟩
  | .hbm, ⟨70, _⟩ => ⟨S625000x128, .f32⟩
  | .hbm, ⟨71, _⟩ => ⟨S_, .f32⟩
  | .hbm, ⟨72, _⟩ => ⟨S50000x128, .f32⟩
  | .hbm, ⟨73, _⟩ => ⟨S625000x1, .i32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x64, .f32⟩
  | .hbm, ⟨78, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x625000, .i32⟩
  | .hbm, ⟨12, _⟩ => ⟨S625000, .i32⟩
  | .hbm, ⟨13, _⟩ => ⟨S1x625000, .i32⟩
  | .hbm, ⟨14, _⟩ => ⟨S625000, .i32⟩
  | .hbm, ⟨15, _⟩ => ⟨S_, .i32⟩
  | .hbm, ⟨16, _⟩ => ⟨S625000, .i32⟩
  | .hbm, ⟨17, _⟩ => ⟨S625000, .i1⟩
  | .hbm, ⟨18, _⟩ => ⟨S_, .i32⟩
  | .hbm, ⟨19, _⟩ => ⟨S625000, .i32⟩
  | .hbm, ⟨20, _⟩ => ⟨S625000, .i32⟩
  | .hbm, ⟨21, _⟩ => ⟨S625000, .i32⟩
  | .hbm, ⟨22, _⟩ => ⟨S625000x1, .i32⟩
  | .hbm, ⟨23, _⟩ => ⟨S625000x128, .f32⟩
  | .hbm, ⟨24, _⟩ => ⟨S_, .f32⟩
  | .hbm, ⟨25, _⟩ => ⟨S50000x128, .f32⟩
  | .hbm, ⟨26, _⟩ => ⟨S625000x1, .i32⟩
  | .hbm, ⟨27, _⟩ => ⟨S50000x128, .f32⟩
  | .hbm, ⟨28, _⟩ => ⟨S_, .f32⟩
  | .hbm, ⟨29, _⟩ => ⟨S625000, .f32⟩
  | .hbm, ⟨30, _⟩ => ⟨S_, .f32⟩
  | .hbm, ⟨31, _⟩ => ⟨S50000, .f32⟩
  | .hbm, ⟨32, _⟩ => ⟨S625000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S625000, .i32⟩
  | .hbm, ⟨51, _⟩ => ⟨S625000, .i1⟩
  | .hbm, ⟨52, _⟩ => ⟨S_, .i32⟩
  | .hbm, ⟨53, _⟩ => ⟨S625000, .i32⟩
  | .hbm, ⟨54, _⟩ => ⟨S625000, .i32⟩
  | .hbm, ⟨55, _⟩ => ⟨S625000, .i32⟩
  | .hbm, ⟨56, _⟩ => ⟨S625000x1, .i32⟩
  | .hbm, ⟨57, _⟩ => ⟨S625000x128, .f32⟩
  | .hbm, ⟨58, _⟩ => ⟨S_, .f32⟩
  | .hbm, ⟨59, _⟩ => ⟨S50000x128, .f32⟩
  | .hbm, ⟨60, _⟩ => ⟨S625000x1, .i32⟩
  | .hbm, ⟨61, _⟩ => ⟨S50000x128, .f32⟩
  | .hbm, ⟨62, _⟩ => ⟨S_, .f32⟩
  | .hbm, ⟨63, _⟩ => ⟨S625000, .f32⟩
  | .hbm, ⟨64, _⟩ => ⟨S_, .f32⟩
  | .hbm, ⟨65, _⟩ => ⟨S50000, .f32⟩
  | .hbm, ⟨66, _⟩ => ⟨S625000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S625000, .i32⟩
  | .hbm, ⟨85, _⟩ => ⟨S625000, .i1⟩
  | .hbm, ⟨86, _⟩ => ⟨S_, .i32⟩
  | .hbm, ⟨87, _⟩ => ⟨S625000, .i32⟩
  | .hbm, ⟨88, _⟩ => ⟨S625000, .i32⟩
  | .hbm, ⟨89, _⟩ => ⟨S625000, .i32⟩
  | .hbm, ⟨90, _⟩ => ⟨S625000x1, .i32⟩
  | .hbm, ⟨91, _⟩ => ⟨S625000x128, .f32⟩
  | .hbm, ⟨92, _⟩ => ⟨S_, .f32⟩
  | .hbm, ⟨93, _⟩ => ⟨S50000x128, .f32⟩
  | .hbm, ⟨94, _⟩ => ⟨S625000x1, .i32⟩
  | .hbm, ⟨95, _⟩ => ⟨S50000x128, .f32⟩
  | .hbm, ⟨96, _⟩ => ⟨S_, .f32⟩
  | .hbm, ⟨97, _⟩ => ⟨S625000, .f32⟩
  | .hbm, ⟨98, _⟩ => ⟨S_, .f32⟩
  | .hbm, ⟨99, _⟩ => ⟨S50000, .f32⟩
  | .hbm, ⟨100, _⟩ => ⟨S625000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.SageSpec.lean ====
/-
  One layer of the network as a function of its operands, entry by entry, on the extended reals.

  A layer takes the aggregated neighbour features `A` and the node features `H` (both `[n, k]`), two weight matrices
  `Wl`, `Wr` (`[k, d]`) and a bias `b` (`d` entries), and returns the `[n, d]` array whose entry `(r, j)` is
  `(∑ₓ A(r, x) · Wl(x, j)) + (∑ₓ H(r, x) · Wr(x, j)) + b(j)`, followed on the hidden layers by `max · 0`.
  The aggregation divides a per-node sum by the node's neighbour count `c`; one program multiplies by `1 / c`
  instead, and for `c ≠ 0` the two are the same extended real whatever the sum is, infinite or not.
-/
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.ValueIdx

/-- Entry `(r, j)` of `A · Wl + H · Wr + b`. -/
def affineAt {n k d : ℕ} (A H : (⟨2, ![n, k]⟩ : Shape).Idx → EReal) (Wl Wr : (⟨2, ![k, d]⟩ : Shape).Idx → EReal)
    (b : Fin d → EReal) (r : Fin n) (j : Fin d) : EReal :=
  (∑ x : Fin k, A (ix2 r x) * Wl (ix2 x j)) + (∑ x : Fin k, H (ix2 r x) * Wr (ix2 x j)) + b j

/-- The output layer: `A · Wl + H · Wr + b` as an array. -/
def affine {n k d : ℕ} (A H : (⟨2, ![n, k]⟩ : Shape).Idx → EReal) (Wl Wr : (⟨2, ![k, d]⟩ : Shape).Idx → EReal)
    (b : Fin d → EReal) : (⟨2, ![n, d]⟩ : Shape).Idx → EReal :=
  fun i => affineAt A H Wl Wr b (i 0) (i 1)

/-- A hidden layer: `max (A · Wl + H · Wr + b) 0` as an array. -/
def affineRelu {n k d : ℕ} (A H : (⟨2, ![n, k]⟩ : Shape).Idx → EReal) (Wl Wr : (⟨2, ![k, d]⟩ : Shape).Idx → EReal)
    (b : Fin d → EReal) : (⟨2, ![n, d]⟩ : Shape).Idx → EReal :=
  fun i => max (affineAt A H Wl Wr b (i 0) (i 1)) 0

/-- Two entries agree when the rows of the two left operands, the columns of the weights and the bias entries they
    read agree. -/
theorem affineAt_congr {n k d n' d' : ℕ}
    (A H : (⟨2, ![n, k]⟩ : Shape).Idx → EReal) (Wl Wr : (⟨2, ![k, d]⟩ : Shape).Idx → EReal) (b : Fin d → EReal)
    (A' H' : (⟨2, ![n', k]⟩ : Shape).Idx → EReal) (Wl' Wr' : (⟨2, ![k, d']⟩ : Shape).Idx → EReal) (b' : Fin d' → EReal)
    (r : Fin n) (j : Fin d) (r' : Fin n') (j' : Fin d')
    (hA : ∀ x, A (ix2 r x) = A' (ix2 r' x)) (hH : ∀ x, H (ix2 r x) = H' (ix2 r' x))
    (hWl : ∀ x, Wl (ix2 x j) = Wl' (ix2 x j')) (hWr : ∀ x, Wr (ix2 x j) = Wr' (ix2 x j')) (hb : b j = b' j') :
    affineAt A H Wl Wr b r j = affineAt A' H' Wl' Wr' b' r' j' := by
  unfold affineAt
  rw [hb]
  refine congrArg₂ (· + ·) (congrArg₂ (· + ·) (Finset.sum_congr rfl fun x _ => ?_) (Finset.sum_congr rfl fun x _ => ?_)) rfl
  · rw [hA x, hWl x]
  · rw [hH x, hWr x]

/-- Multiplying by the reciprocal of a nonzero count is dividing by it, for every extended real `s`: off zero the
    quotient is the product with the inverse, and `1 · c⁻¹ = c⁻¹`. -/
theorem mul_one_div (s c : EReal) (hc : c ≠ 0) : s * Ideal.div 1 c = Ideal.div s c := by
  unfold Ideal.div
  rw [if_neg hc, if_neg hc, one_mul]

/-- A count raised to at least one is not zero. -/
theorem max_one_ne_zero (x : EReal) : max x 1 ≠ 0 := by
  intro h
  have h1 : (1 : EReal) ≤ max x 1 := le_max_right _ _
  rw [h] at h1
  exact absurd h1 (by norm_num)

end Cert.Sage

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.KernelPayload.lean ====
/-
  What one grid point of each dense kernel stores, read at an entry.

  A point loads a `[2000, 128]` block of the aggregated features, the same rows of the node features, both weight
  matrices whole and the bias as one row.  It multiplies each block by its weight matrix into a zero accumulator, adds
  the two products, adds the bias row to every row, and (on the hidden layers) takes the maximum with zero.  The
  narrowing of the operands to a shorter float format is the identity on the extended reals, so entry `(p, q)` of the
  stored block is `(∑ₓ a(p, x) · wl(x, q)) + (∑ₓ h(p, x) · wr(x, q)) + b(0, q)`, with `max · 0` on the hidden layers.
-/
import proofs.«112834_j9483287789791_1_alg».proof.Proof.Gen.KernelIdeal.Skeleton
import proofs.«112834_j9483287789791_1_alg».proof.Proof.SageSpec
import proofs.«112834_j9483287789791_1_alg».proof.Proof.LibRowOps
import Idealize.ShloMosaic.Lib.ValueLayout

noncomputable section

namespace Cert.KernelIdeal.Hand

open Cert.KernelIdeal Cert.KernelIdeal.Gen
open Idealize.ShloMosaic Idealize.ShloMosaic.ValueIdx

/-! ### Which operand coordinate is the row, the column and the contracted one -/

theorem dot_S2000x128_S128x128_S2000x128_1_0_0_1_n_n_l0 (i) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_S2000x128_S128x128_S2000x128_1_0_0_1_n_n_l1 (i) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem dot_S2000x128_S128x128_S2000x128_1_0_0_1_n_n_r0 (i) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem dot_S2000x128_S128x128_S2000x128_1_0_0_1_n_n_r1 (i) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem dot_S2000x128_S128x64_S2000x64_1_0_0_1_n_n_l0 (i) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dot_S2000x128_S128x64_S2000x64_1_0_0_1_n_n_l1 (i) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem dot_S2000x128_S128x64_S2000x64_1_0_0_1_n_n_r0 (i) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem dot_S2000x128_S128x64_S2000x64_1_0_0_1_n_n_r1 (i) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-! ### The stored blocks at an entry -/

/-- First hidden layer: entry `(p, q)` of the stored block. -/
theorem pay0_apply (v0 v3 : FVec Ideal S2000x128 .f32) (v5 v7 : FVec Ideal S128x128 .f32) (v12 : FVec Ideal S1x128 .f32)
    (p : Fin 2000) (q : Fin 128) :
    k0_pay1 (F := Ideal) v0 v3 v5 v7 v12 (ix2 p q)
      = max (Cert.Sage.affineAt v0 v3 v5 v7 (fun j => v12 (ix2 (0 : Fin 1) j)) p q) 0 := by
  unfold k0_pay1 Cert.Sage.affineAt
  simp only [shapeCast_self]
  refine congrArg₂ max (congrArg₂ (· + ·) (congrArg₂ (· + ·) ?_ ?_) ?_) Ideal.ofBits_zero_f32
  · exact Cert.LibRowOps.matmul_zero_apply dot_S2000x128_S128x128_S2000x128_1_0_0_1_n_n none _ _ rfl rfl dot_S2000x128_S128x128_S2000x128_1_0_0_1_n_n_l0 dot_S2000x128_S128x128_S2000x128_1_0_0_1_n_n_l1 dot_S2000x128_S128x128_S2000x128_1_0_0_1_n_n_r0 dot_S2000x128_S128x128_S2000x128_1_0_0_1_n_n_r1 p q
  · exact Cert.LibRowOps.matmul_zero_apply dot_S2000x128_S128x128_S2000x128_1_0_0_1_n_n none _ _ rfl rfl dot_S2000x128_S128x128_S2000x128_1_0_0_1_n_n_l0 dot_S2000x128_S128x128_S2000x128_1_0_0_1_n_n_l1 dot_S2000x128_S128x128_S2000x128_1_0_0_1_n_n_r0 dot_S2000x128_S128x128_S2000x128_1_0_0_1_n_n_r1 p q
  · exact broadcastTo_1b_ab_apply v12 _ p q

/-- Second hidden layer: entry `(p, q)` of the stored block. -/
theorem pay1_apply (v0 v3 : FVec Ideal S2000x128 .f32) (v6 v8 : FVec Ideal S128x128 .f32) (v13 : FVec Ideal S1x128 .f32)
    (p : Fin 2000) (q : Fin 128) :
    k1_pay1 (F := Ideal) v0 v3 v6 v8 v13 (ix2 p q)
      = max (Cert.Sage.affineAt v0 v3 v6 v8 (fun j => v13 (ix2 (0 : Fin 1) j)) p q) 0 := by
  unfold k1_pay1 Cert.Sage.affineAt
  simp only [shapeCast_self]
  refine congrArg₂ max (congrArg₂ (· + ·) (congrArg₂ (· + ·) ?_ ?_) ?_) Ideal.ofBits_zero_f32
  · exact Cert.LibRowOps.matmul_zero_apply dot_S2000x128_S128x128_S2000x128_1_0_0_1_n_n none _ _ rfl rfl dot_S2000x128_S128x128_S2000x128_1_0_0_1_n_n_l0 dot_S2000x128_S128x128_S2000x128_1_0_0_1_n_n_l1 dot_S2000x128_S128x128_S2000x128_1_0_0_1_n_n_r0 dot_S2000x128_S128x128_S2000x128_1_0_0_1_n_n_r1 p q
  · exact Cert.LibRowOps.matmul_zero_apply dot_S2000x128_S128x128_S2000x128_1_0_0_1_n_n none _ _ rfl rfl dot_S2000x128_S128x128_S2000x128_1_0_0_1_n_n_l0 dot_S2000x128_S128x128_S2000x128_1_0_0_1_n_n_l1 dot_S2000x128_S128x128_S2000x128_1_0_0_1_n_n_r0 dot_S2000x128_S128x128_S2000x128_1_0_0_1_n_n_r1 p q
  · exact broadcastTo_1b_ab_apply v13 _ p q

/-- Output layer: entry `(p, q)` of the stored block. -/
theorem pay2_apply (v0 v3 : FVec Ideal S2000x128 .f32) (v6 v8 : FVec Ideal S128x64 .f32) (v13 : FVec Ideal S1x64 .f32)
    (p : Fin 2000) (q : Fin 64) :
    k2_pay1 (F := Ideal) v0 v3 v6 v8 v13 (ix2 p q)
      = Cert.Sage.affineAt v0 v3 v6 v8 (fun j => v13 (ix2 (0 : Fin 1) j)) p q := by
  unfold k2_pay1 Cert.Sage.affineAt
  simp only [shapeCast_self]
  refine congrArg₂ (· + ·) (congrArg₂ (· + ·) ?_ ?_) ?_
  · exact Cert.LibRowOps.matmul_zero_apply dot_S2000x128_S128x64_S2000x64_1_0_0_1_n_n none _ _ rfl rfl dot_S2000x128_S128x64_S2000x64_1_0_0_1_n_n_l0 dot_S2000x128_S128x64_S2000x64_1_0_0_1_n_n_l1 dot_S2000x128_S128x64_S2000x64_1_0_0_1_n_n_r0 dot_S2000x128_S128x64_S2000x64_1_0_0_1_n_n_r1 p q
  · exact Cert.LibRowOps.matmul_zero_apply dot_S2000x128_S128x64_S2000x64_1_0_0_1_n_n none _ _ rfl rfl dot_S2000x128_S128x64_S2000x64_1_0_0_1_n_n_l0 dot_S2000x128_S128x64_S2000x64_1_0_0_1_n_n_l1 dot_S2000x128_S128x64_S2000x64_1_0_0_1_n_n_r0 dot_S2000x128_S128x64_S2000x64_1_0_0_1_n_n_r1 p q
  · exact broadcastTo_1b_ab_apply v13 _ p q

end Cert.KernelIdeal.Hand

end
-- ==== Proof.KernelRegion0.lean ====
/-
  The first hidden layer's region: its result array as a function of the arrays it finds.

  The region runs the dense kernel at 25 grid points.  Point `t` reads rows `2000·t … 2000·t + 1999` of the aggregated
  features and of the node features, the two weight matrices and the bias row whole, and writes rows
  `2000·t … 2000·t + 1999` of the result.  The 25 row blocks cover the result array, so after the region the result
  array is the layer's function of the five operand arrays as the region found them, entry by entry.
-/
import proofs.«112834_j9483287789791_1_alg».proof.Proof.Gen.KernelIdeal.Frame
import proofs.«112834_j9483287789791_1_alg».proof.Proof.KernelPayload
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the two row-blocked inputs and the output are at block `(t, 0)`, the weights
    and the bias at block `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t`, read at `(x, y)`, is the array as the region finds it at the entry the block's
    offset puts there. -/
theorem iblk0_0_apply (c : Dev nD) (t : Fin cfg0.N) (x : Fin 2000) (y : Fin 128) (k : S50000x128.Idx)
    (hk0 : (k 0).val = 2000 * t.val + x.val) (hk1 : (k 1).val = y.val) :
    (iblk0 V c 0 t : S2000x128.Idx → EReal) (ix2 x y) = (V c main_v24 : S50000x128.Idx → EReal) k := by
  obtain ⟨e00, e01, e10, e11, e20, e21, e30, e31, e40, e41, e50, e51⟩ := idx0 t
  unfold iblk0
  rw [View.read_apply]
  show V c main_v24 _ = V c main_v24 _
  congr 1
  funext a
  apply Fin.ext
  match a with
  | ⟨0, _⟩ => show win0_0.index t 0 * 2000 + 1 * x.val = (k 0).val; rw [hk0]; omega
  | ⟨1, _⟩ => show win0_0.index t 1 * 128 + 1 * y.val = (k 1).val; rw [hk1]; omega

/-- Window 1's block at point `t`, read at `(x, y)`, is the array as the region finds it at the entry the block's
    offset puts there. -/
theorem iblk0_1_apply (c : Dev nD) (t : Fin cfg0.N) (x : Fin 2000) (y : Fin 128) (k : S50000x128.Idx)
    (hk0 : (k 0).val = 2000 * t.val + x.val) (hk1 : (k 1).val = y.val) :
    (iblk0 V c 1 t : S2000x128.Idx → EReal) (ix2 x y) = (V c main_arg0 : S50000x128.Idx → EReal) k := by
  obtain ⟨e00, e01, e10, e11, e20, e21, e30, e31, e40, e41, e50, e51⟩ := idx0 t
  unfold iblk0
  rw [View.read_apply]
  show V c main_arg0 _ = V c main_arg0 _
  congr 1
  funext a
  apply Fin.ext
  match a with
  | ⟨0, _⟩ => show win0_1.index t 0 * 2000 + 1 * x.val = (k 0).val; rw [hk0]; omega
  | ⟨1, _⟩ => show win0_1.index t 1 * 128 + 1 * y.val = (k 1).val; rw [hk1]; omega

/-- Window 2's block at point `t`, read at `(x, y)`, is the array as the region finds it at the entry the block's
    offset puts there. -/
theorem iblk0_2_apply (c : Dev nD) (t : Fin cfg0.N) (x : Fin 128) (y : Fin 128) (k : S128x128.Idx)
    (hk0 : (k 0).val = 0 + x.val) (hk1 : (k 1).val = y.val) :
    (iblk0 V c 2 t : S128x128.Idx → EReal) (ix2 x y) = (V c main_arg2 : S128x128.Idx → EReal) k := by
  obtain ⟨e00, e01, e10, e11, e20, e21, e30, e31, e40, e41, e50, e51⟩ := idx0 t
  unfold iblk0
  rw [View.read_apply]
  show V c main_arg2 _ = V c main_arg2 _
  congr 1
  funext a
  apply Fin.ext
  match a with
  | ⟨0, _⟩ => show win0_2.index t 0 * 128 + 1 * x.val = (k 0).val; rw [hk0]; omega
  | ⟨1, _⟩ => show win0_2.index t 1 * 128 + 1 * y.val = (k 1).val; rw [hk1]; omega

/-- Window 3's block at point `t`, read at `(x, y)`, is the array as the region finds it at the entry the block's
    offset puts there. -/
theorem iblk0_3_apply (c : Dev nD) (t : Fin cfg0.N) (x : Fin 128) (y : Fin 128) (k : S128x128.Idx)
    (hk0 : (k 0).val = 0 + x.val) (hk1 : (k 1).val = y.val) :
    (iblk0 V c 3 t : S128x128.Idx → EReal) (ix2 x y) = (V c main_arg3 : S128x128.Idx → EReal) k := by
  obtain ⟨e00, e01, e10, e11, e20, e21, e30, e31, e40, e41, e50, e51⟩ := idx0 t
  unfold iblk0
  rw [View.read_apply]
  show V c main_arg3 _ = V c main_arg3 _
  congr 1
  funext a
  apply Fin.ext
  match a with
  | ⟨0, _⟩ => show win0_3.index t 0 * 128 + 1 * x.val = (k 0).val; rw [hk0]; omega
  | ⟨1, _⟩ => show win0_3.index t 1 * 128 + 1 * y.val = (k 1).val; rw [hk1]; omega

/-- Window 4's block at point `t`, read at `(x, y)`, is the array as the region finds it at the entry the block's
    offset puts there. -/
theorem iblk0_4_apply (c : Dev nD) (t : Fin cfg0.N) (x : Fin 1) (y : Fin 128) (k : S1x128.Idx)
    (hk0 : (k 0).val = 0 + x.val) (hk1 : (k 1).val = y.val) :
    (iblk0 V c 4 t : S1x128.Idx → EReal) (ix2 x y) = (V c main_v25 : S1x128.Idx → EReal) k := by
  obtain ⟨e00, e01, e10, e11, e20, e21, e30, e31, e40, e41, e50, e51⟩ := idx0 t
  unfold iblk0
  rw [View.read_apply]
  show V c main_v25 _ = V c main_v25 _
  congr 1
  funext a
  apply Fin.ext
  match a with
  | ⟨0, _⟩ => show win0_4.index t 0 * 1 + 1 * x.val = (k 0).val; rw [hk0]; omega
  | ⟨1, _⟩ => show win0_4.index t 1 * 128 + 1 * y.val = (k 1).val; rw [hk1]; omega

/-- What point `t` writes back is block `t` of the layer's function of the operand arrays as the region finds them. -/
theorem flushed0 (c : Dev nD) (t : Fin cfg0.N) :
    (dat0 V c).flushed 5 t = ((cfg0.win 5).blk t).view.read (Elt Ideal)
      (Cert.Sage.affineRelu (V c main_v24) (V c main_arg0) (V c main_arg2) (V c main_arg3) (fun j => (V c main_v25 : S1x128.Idx → EReal) (ix2 (0 : Fin 1) j))) := by
  show (cfg0.win 5).cut (grid0.coords t) ((dat0 V c).after 5 t) = _
  rw [after0_5]
  unfold out0_5
  rw [View.canon_unit_zero hz0]
  simp only [View.ld_unit_zero (S := S2000x128) hz0, View.ld_unit_zero (S := S128x128) hz0, View.ld_unit_zero (S := S1x128) hz0]
  obtain ⟨e00, e01, e10, e11, e20, e21, e30, e31, e40, e41, e50, e51⟩ := idx0 t
  funext j
  obtain ⟨x, y, rfl⟩ : ∃ (x : Fin 2000) (y : Fin 128), j = ix2 x y := ⟨j 0, j 1, eq_ix2 j⟩
  refine (pay0_apply _ _ _ _ _ x y).trans ?_
  show _ = Cert.Sage.affineRelu _ _ _ _ _ (((cfg0.win 5).blk t).view.emb (ix2 x y))
  unfold Cert.Sage.affineRelu
  have hr : ((((cfg0.win 5).blk t).view.emb (ix2 x y)) 0).val = 2000 * t.val + x.val := by
    show win0_5.index t 0 * 2000 + 1 * x.val = _; omega
  have hc : ((((cfg0.win 5).blk t).view.emb (ix2 x y)) 1).val = y.val := by
    show win0_5.index t 1 * 128 + 1 * y.val = _; omega
  refine congrArg (max · 0) (Cert.Sage.affineAt_congr _ _ _ _ _ _ _ _ _ _ _ _ _ _ ?_ ?_ ?_ ?_ ?_)
  · intro z; exact iblk0_0_apply V c t x z _ hr rfl
  · intro z; exact iblk0_1_apply V c t x z _ hr rfl
  · intro z; exact iblk0_2_apply V c t z y _ (by show z.val = 0 + z.val; omega) hc
  · intro z; exact iblk0_3_apply V c t z y _ (by show z.val = 0 + z.val; omega) hc
  · exact iblk0_4_apply V c t 0 y _ (by show (0 : ℕ) = 0 + 0; rfl) hc

/-- After the region the result array is the layer's function of the operand arrays as the region found them: every row
    `r` lies in the block of point `r / 2000`. -/
theorem region0_out (c : Dev nD) :
    (dat0 V c).arrAt 5 cfg0.N
      = Cert.Sage.affineRelu (V c main_v24) (V c main_arg0) (V c main_arg2) (V c main_arg3) (fun j => (V c main_v25 : S1x128.Idx → EReal) (ix2 (0 : Fin 1) j)) :=
  (dat0 V c).arrAt_eq_of_cover 5 _ (fun t _ => flushed0 V c t) fun i => by
    have hN : cfg0.N = 25 := N_0
    have hi0 : (i 0).val < 50000 := (i 0).isLt
    have hi1 : (i 1).val < 128 := (i 1).isLt
    let t : Fin cfg0.N := ⟨(i 0).val / 2000, by rw [hN]; omega⟩
    obtain ⟨e00, e01, e10, e11, e20, e21, e30, e31, e40, e41, e50, e51⟩ := idx0 t
    refine ⟨t, flush0_5 t, ?_⟩
    show i ∈ ((View.whole main_v26).slice (win0_5.rect t)).set
    rw [View.set_slice_whole, Rect.mem_set_unit]
    intro a
    match a with
    | ⟨0, _⟩ =>
      show win0_5.index t 0 * 2000 ≤ (i 0).val ∧ (i 0).val < win0_5.index t 0 * 2000 + 2000
      rw [e50]; show (i 0).val / 2000 * 2000 ≤ (i 0).val ∧ (i 0).val < (i 0).val / 2000 * 2000 + 2000; omega
    | ⟨1, _⟩ =>
      show win0_5.index t 1 * 128 ≤ (i 1).val ∧ (i 1).val < win0_5.index t 1 * 128 + 128
      rw [e51]; omega

end Cert.KernelIdeal.Hand

end
-- ==== Proof.KernelRegion1.lean ====
/-
  The second hidden layer's region: its result array as a function of the arrays it finds.

  The region runs the dense kernel at 25 grid points.  Point `t` reads rows `2000·t … 2000·t + 1999` of the aggregated
  features and of the node features, the two weight matrices and the bias row whole, and writes rows
  `2000·t … 2000·t + 1999` of the result.  The 25 row blocks cover the result array, so after the region the result
  array is the layer's function of the five operand arrays as the region found them, entry by entry.
-/
import proofs.«112834_j9483287789791_1_alg».proof.Proof.Gen.KernelIdeal.Frame
import proofs.«112834_j9483287789791_1_alg».proof.Proof.KernelPayload
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the two row-blocked inputs and the output are at block `(t, 0)`, the weights
    and the bias at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t`, read at `(x, y)`, is the array as the region finds it at the entry the block's
    offset puts there. -/
theorem iblk1_0_apply (c : Dev nD) (t : Fin cfg1.N) (x : Fin 2000) (y : Fin 128) (k : S50000x128.Idx)
    (hk0 : (k 0).val = 2000 * t.val + x.val) (hk1 : (k 1).val = y.val) :
    (iblk1 V c 0 t : S2000x128.Idx → EReal) (ix2 x y) = (V c main_v38 : S50000x128.Idx → EReal) k := by
  obtain ⟨e00, e01, e10, e11, e20, e21, e30, e31, e40, e41, e50, e51⟩ := idx1 t
  unfold iblk1
  rw [View.read_apply]
  show V c main_v38 _ = V c main_v38 _
  congr 1
  funext a
  apply Fin.ext
  match a with
  | ⟨0, _⟩ => show win1_0.index t 0 * 2000 + 1 * x.val = (k 0).val; rw [hk0]; omega
  | ⟨1, _⟩ => show win1_0.index t 1 * 128 + 1 * y.val = (k 1).val; rw [hk1]; omega

/-- Window 1's block at point `t`, read at `(x, y)`, is the array as the region finds it at the entry the block's
    offset puts there. -/
theorem iblk1_1_apply (c : Dev nD) (t : Fin cfg1.N) (x : Fin 2000) (y : Fin 128) (k : S50000x128.Idx)
    (hk0 : (k 0).val = 2000 * t.val + x.val) (hk1 : (k 1).val = y.val) :
    (iblk1 V c 1 t : S2000x128.Idx → EReal) (ix2 x y) = (V c main_v26 : S50000x128.Idx → EReal) k := by
  obtain ⟨e00, e01, e10, e11, e20, e21, e30, e31, e40, e41, e50, e51⟩ := idx1 t
  unfold iblk1
  rw [View.read_apply]
  show V c main_v26 _ = V c main_v26 _
  congr 1
  funext a
  apply Fin.ext
  match a with
  | ⟨0, _⟩ => show win1_1.index t 0 * 2000 + 1 * x.val = (k 0).val; rw [hk0]; omega
  | ⟨1, _⟩ => show win1_1.index t 1 * 128 + 1 * y.val = (k 1).val; rw [hk1]; omega

/-- Window 2's block at point `t`, read at `(x, y)`, is the array as the region finds it at the entry the block's
    offset puts there. -/
theorem iblk1_2_apply (c : Dev nD) (t : Fin cfg1.N) (x : Fin 128) (y : Fin 128) (k : S128x128.Idx)
    (hk0 : (k 0).val = 0 + x.val) (hk1 : (k 1).val = y.val) :
    (iblk1 V c 2 t : S128x128.Idx → EReal) (ix2 x y) = (V c main_arg5 : S128x128.Idx → EReal) k := by
  obtain ⟨e00, e01, e10, e11, e20, e21, e30, e31, e40, e41, e50, e51⟩ := idx1 t
  unfold iblk1
  rw [View.read_apply]
  show V c main_arg5 _ = V c main_arg5 _
  congr 1
  funext a
  apply Fin.ext
  match a with
  | ⟨0, _⟩ => show win1_2.index t 0 * 128 + 1 * x.val = (k 0).val; rw [hk0]; omega
  | ⟨1, _⟩ => show win1_2.index t 1 * 128 + 1 * y.val = (k 1).val; rw [hk1]; omega

/-- Window 3's block at point `t`, read at `(x, y)`, is the array as the region finds it at the entry the block's
    offset puts there. -/
theorem iblk1_3_apply (c : Dev nD) (t : Fin cfg1.N) (x : Fin 128) (y : Fin 128) (k : S128x128.Idx)
    (hk0 : (k 0).val = 0 + x.val) (hk1 : (k 1).val = y.val) :
    (iblk1 V c 3 t : S128x128.Idx → EReal) (ix2 x y) = (V c main_arg6 : S128x128.Idx → EReal) k := by
  obtain ⟨e00, e01, e10, e11, e20, e21, e30, e31, e40, e41, e50, e51⟩ := idx1 t
  unfold iblk1
  rw [View.read_apply]
  show V c main_arg6 _ = V c main_arg6 _
  congr 1
  funext a
  apply Fin.ext
  match a with
  | ⟨0, _⟩ => show win1_3.index t 0 * 128 + 1 * x.val = (k 0).val; rw [hk0]; omega
  | ⟨1, _⟩ => show win1_3.index t 1 * 128 + 1 * y.val = (k 1).val; rw [hk1]; omega

/-- Window 4's block at point `t`, read at `(x, y)`, is the array as the region finds it at the entry the block's
    offset puts there. -/
theorem iblk1_4_apply (c : Dev nD) (t : Fin cfg1.N) (x : Fin 1) (y : Fin 128) (k : S1x128.Idx)
    (hk0 : (k 0).val = 0 + x.val) (hk1 : (k 1).val = y.val) :
    (iblk1 V c 4 t : S1x128.Idx → EReal) (ix2 x y) = (V c main_v39 : S1x128.Idx → EReal) k := by
  obtain ⟨e00, e01, e10, e11, e20, e21, e30, e31, e40, e41, e50, e51⟩ := idx1 t
  unfold iblk1
  rw [View.read_apply]
  show V c main_v39 _ = V c main_v39 _
  congr 1
  funext a
  apply Fin.ext
  match a with
  | ⟨0, _⟩ => show win1_4.index t 0 * 1 + 1 * x.val = (k 0).val; rw [hk0]; omega
  | ⟨1, _⟩ => show win1_4.index t 1 * 128 + 1 * y.val = (k 1).val; rw [hk1]; omega

/-- What point `t` writes back is block `t` of the layer's function of the operand arrays as the region finds them. -/
theorem flushed1 (c : Dev nD) (t : Fin cfg1.N) :
    (dat1 V c).flushed 5 t = ((cfg1.win 5).blk t).view.read (Elt Ideal)
      (Cert.Sage.affineRelu (V c main_v38) (V c main_v26) (V c main_arg5) (V c main_arg6) (fun j => (V c main_v39 : S1x128.Idx → EReal) (ix2 (0 : Fin 1) j))) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S128x128) hz1, View.ld_unit_zero (S := S1x128) hz1]
  obtain ⟨e00, e01, e10, e11, e20, e21, e30, e31, e40, e41, e50, e51⟩ := idx1 t
  funext j
  obtain ⟨x, y, rfl⟩ : ∃ (x : Fin 2000) (y : Fin 128), j = ix2 x y := ⟨j 0, j 1, eq_ix2 j⟩
  refine (pay1_apply _ _ _ _ _ x y).trans ?_
  show _ = Cert.Sage.affineRelu _ _ _ _ _ (((cfg1.win 5).blk t).view.emb (ix2 x y))
  unfold Cert.Sage.affineRelu
  have hr : ((((cfg1.win 5).blk t).view.emb (ix2 x y)) 0).val = 2000 * t.val + x.val := by
    show win1_5.index t 0 * 2000 + 1 * x.val = _; omega
  have hc : ((((cfg1.win 5).blk t).view.emb (ix2 x y)) 1).val = y.val := by
    show win1_5.index t 1 * 128 + 1 * y.val = _; omega
  refine congrArg (max · 0) (Cert.Sage.affineAt_congr _ _ _ _ _ _ _ _ _ _ _ _ _ _ ?_ ?_ ?_ ?_ ?_)
  · intro z; exact iblk1_0_apply V c t x z _ hr rfl
  · intro z; exact iblk1_1_apply V c t x z _ hr rfl
  · intro z; exact iblk1_2_apply V c t z y _ (by show z.val = 0 + z.val; omega) hc
  · intro z; exact iblk1_3_apply V c t z y _ (by show z.val = 0 + z.val; omega) hc
  · exact iblk1_4_apply V c t 0 y _ (by show (0 : ℕ) = 0 + 0; rfl) hc

/-- After the region the result array is the layer's function of the operand arrays as the region found them: every row
    `r` lies in the block of point `r / 2000`. -/
theorem region1_out (c : Dev nD) :
    (dat1 V c).arrAt 5 cfg1.N
      = Cert.Sage.affineRelu (V c main_v38) (V c main_v26) (V c main_arg5) (V c main_arg6) (fun j => (V c main_v39 : S1x128.Idx → EReal) (ix2 (0 : Fin 1) j)) :=
  (dat1 V c).arrAt_eq_of_cover 5 _ (fun t _ => flushed1 V c t) fun i => by
    have hN : cfg1.N = 25 := N_1
    have hi0 : (i 0).val < 50000 := (i 0).isLt
    have hi1 : (i 1).val < 128 := (i 1).isLt
    let t : Fin cfg1.N := ⟨(i 0).val / 2000, by rw [hN]; omega⟩
    obtain ⟨e00, e01, e10, e11, e20, e21, e30, e31, e40, e41, e50, e51⟩ := idx1 t
    refine ⟨t, flush1_5 t, ?_⟩
    show i ∈ ((View.whole main_v40).slice (win1_5.rect t)).set
    rw [View.set_slice_whole, Rect.mem_set_unit]
    intro a
    match a with
    | ⟨0, _⟩ =>
      show win1_5.index t 0 * 2000 ≤ (i 0).val ∧ (i 0).val < win1_5.index t 0 * 2000 + 2000
      rw [e50]; show (i 0).val / 2000 * 2000 ≤ (i 0).val ∧ (i 0).val < (i 0).val / 2000 * 2000 + 2000; omega
    | ⟨1, _⟩ =>
      show win1_5.index t 1 * 128 ≤ (i 1).val ∧ (i 1).val < win1_5.index t 1 * 128 + 128
      rw [e51]; omega

end Cert.KernelIdeal.Hand

end
-- ==== Proof.KernelRegion2.lean ====
/-
  The output layer's region: its result array as a function of the arrays it finds.

  The region runs the dense kernel at 25 grid points.  Point `t` reads rows `2000·t … 2000·t + 1999` of the aggregated
  features and of the node features, the two weight matrices and the bias row whole, and writes rows
  `2000·t … 2000·t + 1999` of the result.  The 25 row blocks cover the result array, so after the region the result
  array is the layer's function of the five operand arrays as the region found them, entry by entry.
-/
import proofs.«112834_j9483287789791_1_alg».proof.Proof.Gen.KernelIdeal.Frame
import proofs.«112834_j9483287789791_1_alg».proof.Proof.KernelPayload
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the two row-blocked inputs and the output are at block `(t, 0)`, the weights
    and the bias at block `(0, 0)`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t`, read at `(x, y)`, is the array as the region finds it at the entry the block's
    offset puts there. -/
theorem iblk2_0_apply (c : Dev nD) (t : Fin cfg2.N) (x : Fin 2000) (y : Fin 128) (k : S50000x128.Idx)
    (hk0 : (k 0).val = 2000 * t.val + x.val) (hk1 : (k 1).val = y.val) :
    (iblk2 V c 0 t : S2000x128.Idx → EReal) (ix2 x y) = (V c main_v52 : S50000x128.Idx → EReal) k := by
  obtain ⟨e00, e01, e10, e11, e20, e21, e30, e31, e40, e41, e50, e51⟩ := idx2 t
  unfold iblk2
  rw [View.read_apply]
  show V c main_v52 _ = V c main_v52 _
  congr 1
  funext a
  apply Fin.ext
  match a with
  | ⟨0, _⟩ => show win2_0.index t 0 * 2000 + 1 * x.val = (k 0).val; rw [hk0]; omega
  | ⟨1, _⟩ => show win2_0.index t 1 * 128 + 1 * y.val = (k 1).val; rw [hk1]; omega

/-- Window 1's block at point `t`, read at `(x, y)`, is the array as the region finds it at the entry the block's
    offset puts there. -/
theorem iblk2_1_apply (c : Dev nD) (t : Fin cfg2.N) (x : Fin 2000) (y : Fin 128) (k : S50000x128.Idx)
    (hk0 : (k 0).val = 2000 * t.val + x.val) (hk1 : (k 1).val = y.val) :
    (iblk2 V c 1 t : S2000x128.Idx → EReal) (ix2 x y) = (V c main_v40 : S50000x128.Idx → EReal) k := by
  obtain ⟨e00, e01, e10, e11, e20, e21, e30, e31, e40, e41, e50, e51⟩ := idx2 t
  unfold iblk2
  rw [View.read_apply]
  show V c main_v40 _ = V c main_v40 _
  congr 1
  funext a
  apply Fin.ext
  match a with
  | ⟨0, _⟩ => show win2_1.index t 0 * 2000 + 1 * x.val = (k 0).val; rw [hk0]; omega
  | ⟨1, _⟩ => show win2_1.index t 1 * 128 + 1 * y.val = (k 1).val; rw [hk1]; omega

/-- Window 2's block at point `t`, read at `(x, y)`, is the array as the region finds it at the entry the block's
    offset puts there. -/
theorem iblk2_2_apply (c : Dev nD) (t : Fin cfg2.N) (x : Fin 128) (y : Fin 64) (k : S128x64.Idx)
    (hk0 : (k 0).val = 0 + x.val) (hk1 : (k 1).val = y.val) :
    (iblk2 V c 2 t : S128x64.Idx → EReal) (ix2 x y) = (V c main_arg8 : S128x64.Idx → EReal) k := by
  obtain ⟨e00, e01, e10, e11, e20, e21, e30, e31, e40, e41, e50, e51⟩ := idx2 t
  unfold iblk2
  rw [View.read_apply]
  show V c main_arg8 _ = V c main_arg8 _
  congr 1
  funext a
  apply Fin.ext
  match a with
  | ⟨0, _⟩ => show win2_2.index t 0 * 128 + 1 * x.val = (k 0).val; rw [hk0]; omega
  | ⟨1, _⟩ => show win2_2.index t 1 * 64 + 1 * y.val = (k 1).val; rw [hk1]; omega

/-- Window 3's block at point `t`, read at `(x, y)`, is the array as the region finds it at the entry the block's
    offset puts there. -/
theorem iblk2_3_apply (c : Dev nD) (t : Fin cfg2.N) (x : Fin 128) (y : Fin 64) (k : S128x64.Idx)
    (hk0 : (k 0).val = 0 + x.val) (hk1 : (k 1).val = y.val) :
    (iblk2 V c 3 t : S128x64.Idx → EReal) (ix2 x y) = (V c main_arg9 : S128x64.Idx → EReal) k := by
  obtain ⟨e00, e01, e10, e11, e20, e21, e30, e31, e40, e41, e50, e51⟩ := idx2 t
  unfold iblk2
  rw [View.read_apply]
  show V c main_arg9 _ = V c main_arg9 _
  congr 1
  funext a
  apply Fin.ext
  match a with
  | ⟨0, _⟩ => show win2_3.index t 0 * 128 + 1 * x.val = (k 0).val; rw [hk0]; omega
  | ⟨1, _⟩ => show win2_3.index t 1 * 64 + 1 * y.val = (k 1).val; rw [hk1]; omega

/-- Window 4's block at point `t`, read at `(x, y)`, is the array as the region finds it at the entry the block's
    offset puts there. -/
theorem iblk2_4_apply (c : Dev nD) (t : Fin cfg2.N) (x : Fin 1) (y : Fin 64) (k : S1x64.Idx)
    (hk0 : (k 0).val = 0 + x.val) (hk1 : (k 1).val = y.val) :
    (iblk2 V c 4 t : S1x64.Idx → EReal) (ix2 x y) = (V c main_v53 : S1x64.Idx → EReal) k := by
  obtain ⟨e00, e01, e10, e11, e20, e21, e30, e31, e40, e41, e50, e51⟩ := idx2 t
  unfold iblk2
  rw [View.read_apply]
  show V c main_v53 _ = V c main_v53 _
  congr 1
  funext a
  apply Fin.ext
  match a with
  | ⟨0, _⟩ => show win2_4.index t 0 * 1 + 1 * x.val = (k 0).val; rw [hk0]; omega
  | ⟨1, _⟩ => show win2_4.index t 1 * 64 + 1 * y.val = (k 1).val; rw [hk1]; omega

/-- What point `t` writes back is block `t` of the layer's function of the operand arrays as the region finds them. -/
theorem flushed2 (c : Dev nD) (t : Fin cfg2.N) :
    (dat2 V c).flushed 5 t = ((cfg2.win 5).blk t).view.read (Elt Ideal)
      (Cert.Sage.affine (V c main_v52) (V c main_v40) (V c main_arg8) (V c main_arg9) (fun j => (V c main_v53 : S1x64.Idx → EReal) (ix2 (0 : Fin 1) j))) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S128x64) hz2, View.ld_unit_zero (S := S1x64) hz2]
  obtain ⟨e00, e01, e10, e11, e20, e21, e30, e31, e40, e41, e50, e51⟩ := idx2 t
  funext j
  obtain ⟨x, y, rfl⟩ : ∃ (x : Fin 2000) (y : Fin 64), j = ix2 x y := ⟨j 0, j 1, eq_ix2 j⟩
  refine (pay2_apply _ _ _ _ _ x y).trans ?_
  show _ = (Cert.Sage.affine (V c main_v52 : S50000x128.Idx → EReal) (V c main_v40 : S50000x128.Idx → EReal) (V c main_arg8 : S128x64.Idx → EReal) (V c main_arg9 : S128x64.Idx → EReal)
      (fun j => (V c main_v53 : S1x64.Idx → EReal) (ix2 (0 : Fin 1) j)) : S50000x64.Idx → EReal) (((cfg2.win 5).blk t).view.emb (ix2 x y))
  unfold Cert.Sage.affine
  have hr : ((((cfg2.win 5).blk t).view.emb (ix2 x y)) 0).val = 2000 * t.val + x.val := by
    show win2_5.index t 0 * 2000 + 1 * x.val = _; omega
  have hc : ((((cfg2.win 5).blk t).view.emb (ix2 x y)) 1).val = y.val := by
    show win2_5.index t 1 * 64 + 1 * y.val = _; omega
  refine (Cert.Sage.affineAt_congr _ _ _ _ _ _ _ _ _ _ _ _ _ _ ?_ ?_ ?_ ?_ ?_)
  · intro z; exact iblk2_0_apply V c t x z _ hr rfl
  · intro z; exact iblk2_1_apply V c t x z _ hr rfl
  · intro z; exact iblk2_2_apply V c t z y _ (by show z.val = 0 + z.val; omega) hc
  · intro z; exact iblk2_3_apply V c t z y _ (by show z.val = 0 + z.val; omega) hc
  · exact iblk2_4_apply V c t 0 y _ (by show (0 : ℕ) = 0 + 0; rfl) hc

/-- After the region the result array is the layer's function of the operand arrays as the region found them: every row
    `r` lies in the block of point `r / 2000`. -/
theorem region2_out (c : Dev nD) :
    (dat2 V c).arrAt 5 cfg2.N
      = Cert.Sage.affine (V c main_v52) (V c main_v40) (V c main_arg8) (V c main_arg9) (fun j => (V c main_v53 : S1x64.Idx → EReal) (ix2 (0 : Fin 1) j)) :=
  (dat2 V c).arrAt_eq_of_cover 5 _ (fun t _ => flushed2 V c t) fun i => by
    have hN : cfg2.N = 25 := N_2
    have hi0 : (i 0).val < 50000 := (i 0).isLt
    have hi1 : (i 1).val < 64 := (i 1).isLt
    let t : Fin cfg2.N := ⟨(i 0).val / 2000, by rw [hN]; omega⟩
    obtain ⟨e00, e01, e10, e11, e20, e21, e30, e31, e40, e41, e50, e51⟩ := idx2 t
    refine ⟨t, flush2_5 t, ?_⟩
    show i ∈ ((View.whole main_v54).slice (win2_5.rect t)).set
    rw [View.set_slice_whole, Rect.mem_set_unit]
    intro a
    match a with
    | ⟨0, _⟩ =>
      show win2_5.index t 0 * 2000 ≤ (i 0).val ∧ (i 0).val < win2_5.index t 0 * 2000 + 2000
      rw [e50]; show (i 0).val / 2000 * 2000 ≤ (i 0).val ∧ (i 0).val < (i 0).val / 2000 * 2000 + 2000; omega
    | ⟨1, _⟩ =>
      show win2_5.index t 1 * 64 ≤ (i 1).val ∧ (i 1).val < win2_5.index t 1 * 64 + 64
      rw [e51]; omega

end Cert.KernelIdeal.Hand

end
-- ==== Proof.KernelAgg.lean ====
/-
  The aggregation before each dense layer, as functions of the edge rows and the features.

  The host gathers the node features along the source row of the edge list (a negative index counted from the end) and
  adds the gathered rows into their destination nodes.  It counts each node's neighbours by adding ones the same way,
  raises the count to at least one, and takes the reciprocal.  The aggregated features are each node's sum times its
  reciprocal: at entry `(r, x)`, the sum's entry times one over node `r`'s raised count, which is never zero.
-/
import proofs.«112834_j9483287789791_1_alg».proof.Proof.Gen.KernelIdeal
import proofs.«112834_j9483287789791_1_alg».proof.Proof.SageSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

/-! ## The host's functions -/

/-- The source row of the edge list. -/
def srcRow (e : IVec S2x625000 32) : IVec S625000 32 :=
  shapeCast _ (extractStridedSlice S1x625000 ![0, 0] e slices_S2x625000_S1x625000_0_0) shapeCasts_S1x625000_S625000

/-- The destination row of the edge list. -/
def dstRow (e : IVec S2x625000 32) : IVec S625000 32 :=
  shapeCast _ (extractStridedSlice S1x625000 ![1, 0] e slices_S2x625000_S1x625000_1_0) shapeCasts_S1x625000_S625000

/-- Each node's neighbour count — ones added into the destination nodes — raised to at least one. -/
def cntK (dv : IVec S625000 32) : FVec Ideal S50000 .f32 :=
  maximumf
    (Host.scatterAdd (F := Ideal) scatter_S50000_S625000x1_S625000_n_0_0_1
      (broadcastInDim S50000 ![] bcast_S_S50000 (constant (F := Ideal) S_ .f32 0x00000000#32))
      (broadcastInDim S625000x1 ![0] bcast_S625000_S625000x1_0 dv)
      (broadcastInDim S625000 ![] bcast_S_S625000 (constant (F := Ideal) S_ .f32 0x3F800000#32)))
    (broadcastInDim S50000 ![] bcast_S_S50000 (constant (F := Ideal) S_ .f32 0x3F800000#32))

/-- The reciprocal of each node's raised count, as a column. -/
def invCnt (dv : IVec S625000 32) : FVec Ideal S50000x1 .f32 :=
  broadcastInDim S50000x1 ![0] bcast_S50000_S50000x1_0
    (Host.divf (F := Ideal) (broadcastInDim S50000 ![] bcast_S_S50000 (constant (F := Ideal) S_ .f32 0x3F800000#32)) (cntK dv))

/-- The features gathered along the source row (a negative index counted from the end) and added into their
    destination nodes. -/
def segSumK (sv dv : IVec S625000 32) (h : FVec Ideal S50000x128 .f32) :
    FVec Ideal S50000x128 .f32 :=
  Host.scatterAdd (F := Ideal) scatter_S50000x128_S625000x1_S625000x128_1_0_0_1
    (broadcastInDim S50000x128 ![] bcast_S_S50000x128 (constant (F := Ideal) S_ .f32 0x00000000#32))
    (broadcastInDim S625000x1 ![0] bcast_S625000_S625000x1_0 dv)
    (Host.gather gather_S50000x128_S625000x1_S625000x128_1_0_n_n_0_1_1128 h
      (broadcastInDim S625000x1 ![0] bcast_S625000_S625000x1_0
        (select (cmpi .slt sv (broadcastInDim S625000 ![] bcast_S_S625000 (constantI S_ 32 0#32)))
          (addi sv (broadcastInDim S625000 ![] bcast_S_S625000 (constantI S_ 32 50000#32))) sv)))

/-- The aggregation: each node's sum times its entry of the column `iv`. -/
def aggK (sv dv : IVec S625000 32) (iv : FVec Ideal S50000x1 .f32)
    (h : FVec Ideal S50000x128 .f32) : FVec Ideal S50000x128 .f32 :=
  mulf (segSumK sv dv h) (broadcastInDim S50000x128 ![0, 1] bcast_S50000x1_S50000x128_0_1 iv)

/-- The f32 word of one denotes the extended real one. -/
theorem ofBits_one_f32 : Ideal.ofBits .f32 0x3F800000#32 = 1 := by
  simp [Ideal.ofBits, Ideal.ieee]
  first
    | (rw [← EReal.coe_mul]; norm_num)
    | (norm_cast; norm_num)
    | (exact_mod_cast (by norm_num : (8388608 : ℝ) * ((2:ℝ) ^ 23)⁻¹ = 1))

/-- The host's quotient of two arrays at an entry is the quotient of the entries. -/
theorem hostDivf_at {s : Shape} (a b : FVec Ideal s .f32) (i : s.Idx) :
    Host.divf (F := Ideal) a b i = Ideal.div (a i) (b i) := rfl

/-- A constant spread over the nodes, at a node, is the constant. -/
theorem nodeConst_apply (w : BitVec 32) (r : Fin 50000) :
    broadcastInDim S50000 ![] bcast_S_S50000 (constant (F := Ideal) S_ .f32 w) (ix1 r) = Ideal.ofBits .f32 w :=
  broadcastInDim_apply _ bcast_S_S50000 _ (ix1 r) ix0 (fun a => a.elim0)

/-- The column of reciprocals at a node: one over the node's raised count. -/
theorem invCnt_apply (dv : IVec S625000 32) (r : Fin 50000) :
    invCnt dv (ix2 r (0 : Fin 1)) = Ideal.div 1 (cntK dv (ix1 r)) := by
  unfold invCnt
  refine (broadcastInDim_apply _ bcast_S50000_S50000x1_0 _ (ix2 r (0 : Fin 1)) (ix1 r) (fun a => ?_)).trans ?_
  · match a with
    | ⟨0, _⟩ => show r.val = if (50000 : Nat) = 1 then 0 else r.val; rw [if_neg (by decide)]
  refine (hostDivf_at _ _ (ix1 r)).trans ?_
  rw [nodeConst_apply, ofBits_one_f32]

/-- The aggregation at an entry: the node's sum times the reciprocal of its raised count. -/
theorem aggK_apply (sv dv : IVec S625000 32) (h : FVec Ideal S50000x128 .f32) (r : Fin 50000) (x : Fin 128) :
    aggK sv dv (invCnt dv) h (ix2 r x) = segSumK sv dv h (ix2 r x) * Ideal.div 1 (cntK dv (ix1 r)) := by
  unfold aggK
  refine (mulf_apply _ _ (ix2 r x)).trans (congrArg (segSumK sv dv h (ix2 r x) * ·) ?_)
  refine (broadcastInDim_apply _ bcast_S50000x1_S50000x128_0_1 _ (ix2 r x) (ix2 r (0 : Fin 1)) (fun a => ?_)).trans
    (invCnt_apply dv r)
  match a with
  | ⟨0, _⟩ => show r.val = if (50000 : Nat) = 1 then 0 else r.val; rw [if_neg (by decide)]
  | ⟨1, _⟩ => show 0 = if (1 : Nat) = 1 then 0 else x.val; rw [if_pos rfl]

/-- A node's raised count is not zero. -/
theorem cntK_ne_zero (dv : IVec S625000 32) (r : Fin 50000) : cntK dv (ix1 r) ≠ 0 := by
  unfold cntK
  rw [maximumf_apply, nodeConst_apply, ofBits_one_f32]
  exact Cert.Sage.max_one_ne_zero _

/-- A bias vector as a one-row matrix, read along its row. -/
def biasRow128 (b : FVec Ideal S128 .f32) : Fin 128 → EReal :=
  fun j => (shapeCast S1x128 b shapeCasts_S128_S1x128 : S1x128.Idx → EReal) (ix2 (0 : Fin 1) j)
def biasRow64 (b : FVec Ideal S64 .f32) : Fin 64 → EReal :=
  fun j => (shapeCast S1x64 b shapeCasts_S64_S1x64 : S1x64.Idx → EReal) (ix2 (0 : Fin 1) j)

end Cert.KernelIdeal.Hand

end
-- ==== Proof.KernelHost.lean ====
/-
  The idealized kernel's result as a function of its arguments.

  Before each region the host gathers the current node features along the source row of the edge list, adds the
  gathered rows into their destination nodes, and multiplies each node's sum by the reciprocal of its neighbour count
  raised to at least one — the count computed once, before the first region.  Each region then applies one dense
  layer to the aggregated features and the node features.  Reading the buffers' contents at every boundary between a
  host stretch and a region, from the launch to the return, gives the result as three nested layers of the arguments.
-/
import proofs.«112834_j9483287789791_1_alg».proof.Proof.Gen.KernelIdeal.Frame
import proofs.«112834_j9483287789791_1_alg».proof.Proof.KernelRegion0
import proofs.«112834_j9483287789791_1_alg».proof.Proof.KernelRegion1
import proofs.«112834_j9483287789791_1_alg».proof.Proof.KernelRegion2
import proofs.«112834_j9483287789791_1_alg».proof.Proof.KernelAgg
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## After the first host stretch: every buffer the regions and the later stretches read, from the launch memory -/

set_option maxHeartbeats 40000000 in
theorem w1_v24 (c : Dev nD) : (W1 m ρ c (Proc.devRef .tc main_v24) : FVec Ideal S50000x128 .f32) = aggK (srcRow (m ((c : Thread nD τ).loc main_arg1))) (dstRow (m ((c : Thread nD τ).loc main_arg1))) (invCnt (dstRow (m ((c : Thread nD τ).loc main_arg1)))) (m ((c : Thread nD τ).loc main_arg0)) := by
  show StableHlo.after hostOps0 (W0 m ρ c) (Proc.devRef .tc main_v24) = _
  after_results_simp
  rfl

set_option maxHeartbeats 40000000 in
theorem w1_v1 (c : Dev nD) : (W1 m ρ c (Proc.devRef .tc main_v1) : IVec S625000 32) = (srcRow (m ((c : Thread nD τ).loc main_arg1))) := by
  show StableHlo.after hostOps0 (W0 m ρ c) (Proc.devRef .tc main_v1) = _
  after_results_simp
  rfl

set_option maxHeartbeats 40000000 in
theorem w1_v3 (c : Dev nD) : (W1 m ρ c (Proc.devRef .tc main_v3) : IVec S625000 32) = (dstRow (m ((c : Thread nD τ).loc main_arg1))) := by
  show StableHlo.after hostOps0 (W0 m ρ c) (Proc.devRef .tc main_v3) = _
  after_results_simp
  rfl

set_option maxHeartbeats 40000000 in
theorem w1_v12 (c : Dev nD) : (W1 m ρ c (Proc.devRef .tc main_v12) : FVec Ideal S50000x1 .f32) = (invCnt (dstRow (m ((c : Thread nD τ).loc main_arg1)))) := by
  show StableHlo.after hostOps0 (W0 m ρ c) (Proc.devRef .tc main_v12) = _
  after_results_simp
  rfl

set_option maxHeartbeats 40000000 in
theorem w1_v25 (c : Dev nD) : (W1 m ρ c (Proc.devRef .tc main_v25) : FVec Ideal S1x128 .f32) = (shapeCast S1x128 (m ((c : Thread nD τ).loc main_arg4)) shapeCasts_S128_S1x128) := by
  show StableHlo.after hostOps0 (W0 m ρ c) (Proc.devRef .tc main_v25) = _
  after_results_simp
  rfl

theorem w1_arg0 (c : Dev nD) : (W1 m ρ c (Proc.devRef .tc main_arg0) : FVec Ideal S50000x128 .f32) = (m ((c : Thread nD τ).loc main_arg0)) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem w1_arg2 (c : Dev nD) : (W1 m ρ c (Proc.devRef .tc main_arg2) : FVec Ideal S128x128 .f32) = (m ((c : Thread nD τ).loc main_arg2)) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem w1_arg3 (c : Dev nD) : (W1 m ρ c (Proc.devRef .tc main_arg3) : FVec Ideal S128x128 .f32) = (m ((c : Thread nD τ).loc main_arg3)) :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem w1_arg5 (c : Dev nD) : (W1 m ρ c (Proc.devRef .tc main_arg5) : FVec Ideal S128x128 .f32) = (m ((c : Thread nD τ).loc main_arg5)) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem w1_arg6 (c : Dev nD) : (W1 m ρ c (Proc.devRef .tc main_arg6) : FVec Ideal S128x128 .f32) = (m ((c : Thread nD τ).loc main_arg6)) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem w1_arg7 (c : Dev nD) : (W1 m ρ c (Proc.devRef .tc main_arg7) : FVec Ideal S128 .f32) = (m ((c : Thread nD τ).loc main_arg7)) :=
  (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem w1_arg8 (c : Dev nD) : (W1 m ρ c (Proc.devRef .tc main_arg8) : FVec Ideal S128x64 .f32) = (m ((c : Thread nD τ).loc main_arg8)) :=
  (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem w1_arg9 (c : Dev nD) : (W1 m ρ c (Proc.devRef .tc main_arg9) : FVec Ideal S128x64 .f32) = (m ((c : Thread nD τ).loc main_arg9)) :=
  (StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem w1_arg10 (c : Dev nD) : (W1 m ρ c (Proc.devRef .tc main_arg10) : FVec Ideal S64 .f32) = (m ((c : Thread nD τ).loc main_arg10)) :=
  (StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- The first hidden layer's features. -/
def hid1 (c : Dev nD) : FVec Ideal S50000x128 .f32 :=
  Cert.Sage.affineRelu (aggK (srcRow (m ((c : Thread nD τ).loc main_arg1))) (dstRow (m ((c : Thread nD τ).loc main_arg1))) (invCnt (dstRow (m ((c : Thread nD τ).loc main_arg1)))) (m ((c : Thread nD τ).loc main_arg0))) (m ((c : Thread nD τ).loc main_arg0)) (m ((c : Thread nD τ).loc main_arg2)) (m ((c : Thread nD τ).loc main_arg3)) (biasRow128 (m ((c : Thread nD τ).loc main_arg4)))

/-! ## After the first region -/

theorem w2_v26 (c : Dev nD) : (W2 m ρ c (Proc.devRef .tc main_v26) : FVec Ideal S50000x128 .f32) = hid1 m c := by
  refine (W2_arr m ρ c 5).trans ((region0_out (V1 m ρ) c).trans ?_)
  show Cert.Sage.affineRelu (W1 m ρ c (Proc.devRef .tc main_v24)) (W1 m ρ c (Proc.devRef .tc main_arg0)) (W1 m ρ c (Proc.devRef .tc main_arg2)) (W1 m ρ c (Proc.devRef .tc main_arg3))
    (fun j => (W1 m ρ c (Proc.devRef .tc main_v25) : S1x128.Idx → EReal) (ix2 (0 : Fin 1) j)) = _
  rw [w1_v24 m ρ c, w1_arg0 m ρ c, w1_arg2 m ρ c, w1_arg3 m ρ c, w1_v25 m ρ c]
  rfl

theorem w2_v1 (c : Dev nD) : (W2 m ρ c (Proc.devRef .tc main_v1) : IVec S625000 32) = (srcRow (m ((c : Thread nD τ).loc main_arg1))) :=
  (W2_of_ne m ρ c main_v1 (by decide)).trans (w1_v1 m ρ c)

theorem w2_v3 (c : Dev nD) : (W2 m ρ c (Proc.devRef .tc main_v3) : IVec S625000 32) = (dstRow (m ((c : Thread nD τ).loc main_arg1))) :=
  (W2_of_ne m ρ c main_v3 (by decide)).trans (w1_v3 m ρ c)

theorem w2_v12 (c : Dev nD) : (W2 m ρ c (Proc.devRef .tc main_v12) : FVec Ideal S50000x1 .f32) = (invCnt (dstRow (m ((c : Thread nD τ).loc main_arg1)))) :=
  (W2_of_ne m ρ c main_v12 (by decide)).trans (w1_v12 m ρ c)

theorem w2_arg5 (c : Dev nD) : (W2 m ρ c (Proc.devRef .tc main_arg5) : FVec Ideal S128x128 .f32) = (m ((c : Thread nD τ).loc main_arg5)) :=
  (W2_of_ne m ρ c main_arg5 (by decide)).trans (w1_arg5 m ρ c)

theorem w2_arg6 (c : Dev nD) : (W2 m ρ c (Proc.devRef .tc main_arg6) : FVec Ideal S128x128 .f32) = (m ((c : Thread nD τ).loc main_arg6)) :=
  (W2_of_ne m ρ c main_arg6 (by decide)).trans (w1_arg6 m ρ c)

theorem w2_arg7 (c : Dev nD) : (W2 m ρ c (Proc.devRef .tc main_arg7) : FVec Ideal S128 .f32) = (m ((c : Thread nD τ).loc main_arg7)) :=
  (W2_of_ne m ρ c main_arg7 (by decide)).trans (w1_arg7 m ρ c)

theorem w2_arg8 (c : Dev nD) : (W2 m ρ c (Proc.devRef .tc main_arg8) : FVec Ideal S128x64 .f32) = (m ((c : Thread nD τ).loc main_arg8)) :=
  (W2_of_ne m ρ c main_arg8 (by decide)).trans (w1_arg8 m ρ c)

theorem w2_arg9 (c : Dev nD) : (W2 m ρ c (Proc.devRef .tc main_arg9) : FVec Ideal S128x64 .f32) = (m ((c : Thread nD τ).loc main_arg9)) :=
  (W2_of_ne m ρ c main_arg9 (by decide)).trans (w1_arg9 m ρ c)

theorem w2_arg10 (c : Dev nD) : (W2 m ρ c (Proc.devRef .tc main_arg10) : FVec Ideal S64 .f32) = (m ((c : Thread nD τ).loc main_arg10)) :=
  (W2_of_ne m ρ c main_arg10 (by decide)).trans (w1_arg10 m ρ c)

/-! ## After the second host stretch -/

set_option maxHeartbeats 40000000 in
theorem w3_v38 (c : Dev nD) : (W3 m ρ c (Proc.devRef .tc main_v38) : FVec Ideal S50000x128 .f32) = aggK (srcRow (m ((c : Thread nD τ).loc main_arg1))) (dstRow (m ((c : Thread nD τ).loc main_arg1))) (invCnt (dstRow (m ((c : Thread nD τ).loc main_arg1)))) (hid1 m c) := by
  show StableHlo.after hostOps1 (W2 m ρ c) (Proc.devRef .tc main_v38) = _
  after_results_simp
  rw [w2_v1 m ρ c, w2_v3 m ρ c, w2_v12 m ρ c, w2_v26 m ρ c]
  rfl

set_option maxHeartbeats 40000000 in
theorem w3_v39 (c : Dev nD) : (W3 m ρ c (Proc.devRef .tc main_v39) : FVec Ideal S1x128 .f32) = (shapeCast S1x128 (m ((c : Thread nD τ).loc main_arg7)) shapeCasts_S128_S1x128) := by
  show StableHlo.after hostOps1 (W2 m ρ c) (Proc.devRef .tc main_v39) = _
  after_results_simp
  rw [w2_arg7 m ρ c]
  rfl

theorem w3_v26 (c : Dev nD) : (W3 m ρ c (Proc.devRef .tc main_v26) : FVec Ideal S50000x128 .f32) = hid1 m c :=
  (StableHlo.after_of_forall_not_mem (b := Proc.devRef .tc main_v26) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w2_v26 m ρ c)

theorem w3_v1 (c : Dev nD) : (W3 m ρ c (Proc.devRef .tc main_v1) : IVec S625000 32) = (srcRow (m ((c : Thread nD τ).loc main_arg1))) :=
  (StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w2_v1 m ρ c)

theorem w3_v3 (c : Dev nD) : (W3 m ρ c (Proc.devRef .tc main_v3) : IVec S625000 32) = (dstRow (m ((c : Thread nD τ).loc main_arg1))) :=
  (StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w2_v3 m ρ c)

theorem w3_v12 (c : Dev nD) : (W3 m ρ c (Proc.devRef .tc main_v12) : FVec Ideal S50000x1 .f32) = (invCnt (dstRow (m ((c : Thread nD τ).loc main_arg1)))) :=
  (StableHlo.after_of_forall_not_mem (b := Proc.devRef .tc main_v12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w2_v12 m ρ c)

theorem w3_arg5 (c : Dev nD) : (W3 m ρ c (Proc.devRef .tc main_arg5) : FVec Ideal S128x128 .f32) = (m ((c : Thread nD τ).loc main_arg5)) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w2_arg5 m ρ c)

theorem w3_arg6 (c : Dev nD) : (W3 m ρ c (Proc.devRef .tc main_arg6) : FVec Ideal S128x128 .f32) = (m ((c : Thread nD τ).loc main_arg6)) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w2_arg6 m ρ c)

theorem w3_arg8 (c : Dev nD) : (W3 m ρ c (Proc.devRef .tc main_arg8) : FVec Ideal S128x64 .f32) = (m ((c : Thread nD τ).loc main_arg8)) :=
  (StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w2_arg8 m ρ c)

theorem w3_arg9 (c : Dev nD) : (W3 m ρ c (Proc.devRef .tc main_arg9) : FVec Ideal S128x64 .f32) = (m ((c : Thread nD τ).loc main_arg9)) :=
  (StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w2_arg9 m ρ c)

theorem w3_arg10 (c : Dev nD) : (W3 m ρ c (Proc.devRef .tc main_arg10) : FVec Ideal S64 .f32) = (m ((c : Thread nD τ).loc main_arg10)) :=
  (StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w2_arg10 m ρ c)

/-- The second hidden layer's features. -/
def hid2 (c : Dev nD) : FVec Ideal S50000x128 .f32 :=
  Cert.Sage.affineRelu (aggK (srcRow (m ((c : Thread nD τ).loc main_arg1))) (dstRow (m ((c : Thread nD τ).loc main_arg1))) (invCnt (dstRow (m ((c : Thread nD τ).loc main_arg1)))) (hid1 m c)) (hid1 m c) (m ((c : Thread nD τ).loc main_arg5)) (m ((c : Thread nD τ).loc main_arg6)) (biasRow128 (m ((c : Thread nD τ).loc main_arg7)))

/-! ## After the second region -/

theorem w4_v40 (c : Dev nD) : (W4 m ρ c (Proc.devRef .tc main_v40) : FVec Ideal S50000x128 .f32) = hid2 m c := by
  refine (W4_arr m ρ c 5).trans ((region1_out (V3 m ρ) c).trans ?_)
  show Cert.Sage.affineRelu (W3 m ρ c (Proc.devRef .tc main_v38)) (W3 m ρ c (Proc.devRef .tc main_v26)) (W3 m ρ c (Proc.devRef .tc main_arg5)) (W3 m ρ c (Proc.devRef .tc main_arg6))
    (fun j => (W3 m ρ c (Proc.devRef .tc main_v39) : S1x128.Idx → EReal) (ix2 (0 : Fin 1) j)) = _
  rw [w3_v38 m ρ c, w3_v26 m ρ c, w3_arg5 m ρ c, w3_arg6 m ρ c, w3_v39 m ρ c]
  rfl

theorem w4_v1 (c : Dev nD) : (W4 m ρ c (Proc.devRef .tc main_v1) : IVec S625000 32) = (srcRow (m ((c : Thread nD τ).loc main_arg1))) :=
  (W4_of_ne m ρ c main_v1 (by decide)).trans (w3_v1 m ρ c)

theorem w4_v3 (c : Dev nD) : (W4 m ρ c (Proc.devRef .tc main_v3) : IVec S625000 32) = (dstRow (m ((c : Thread nD τ).loc main_arg1))) :=
  (W4_of_ne m ρ c main_v3 (by decide)).trans (w3_v3 m ρ c)

theorem w4_v12 (c : Dev nD) : (W4 m ρ c (Proc.devRef .tc main_v12) : FVec Ideal S50000x1 .f32) = (invCnt (dstRow (m ((c : Thread nD τ).loc main_arg1)))) :=
  (W4_of_ne m ρ c main_v12 (by decide)).trans (w3_v12 m ρ c)

theorem w4_arg8 (c : Dev nD) : (W4 m ρ c (Proc.devRef .tc main_arg8) : FVec Ideal S128x64 .f32) = (m ((c : Thread nD τ).loc main_arg8)) :=
  (W4_of_ne m ρ c main_arg8 (by decide)).trans (w3_arg8 m ρ c)

theorem w4_arg9 (c : Dev nD) : (W4 m ρ c (Proc.devRef .tc main_arg9) : FVec Ideal S128x64 .f32) = (m ((c : Thread nD τ).loc main_arg9)) :=
  (W4_of_ne m ρ c main_arg9 (by decide)).trans (w3_arg9 m ρ c)

theorem w4_arg10 (c : Dev nD) : (W4 m ρ c (Proc.devRef .tc main_arg10) : FVec Ideal S64 .f32) = (m ((c : Thread nD τ).loc main_arg10)) :=
  (W4_of_ne m ρ c main_arg10 (by decide)).trans (w3_arg10 m ρ c)

/-! ## After the third host stretch -/

set_option maxHeartbeats 40000000 in
theorem w5_v52 (c : Dev nD) : (W5 m ρ c (Proc.devRef .tc main_v52) : FVec Ideal S50000x128 .f32) = aggK (srcRow (m ((c : Thread nD τ).loc main_arg1))) (dstRow (m ((c : Thread nD τ).loc main_arg1))) (invCnt (dstRow (m ((c : Thread nD τ).loc main_arg1)))) (hid2 m c) := by
  show StableHlo.after hostOps2 (W4 m ρ c) (Proc.devRef .tc main_v52) = _
  after_results_simp
  rw [w4_v1 m ρ c, w4_v3 m ρ c, w4_v12 m ρ c, w4_v40 m ρ c]
  rfl

set_option maxHeartbeats 40000000 in
theorem w5_v53 (c : Dev nD) : (W5 m ρ c (Proc.devRef .tc main_v53) : FVec Ideal S1x64 .f32) = (shapeCast S1x64 (m ((c : Thread nD τ).loc main_arg10)) shapeCasts_S64_S1x64) := by
  show StableHlo.after hostOps2 (W4 m ρ c) (Proc.devRef .tc main_v53) = _
  after_results_simp
  rw [w4_arg10 m ρ c]
  rfl

theorem w5_v40 (c : Dev nD) : (W5 m ρ c (Proc.devRef .tc main_v40) : FVec Ideal S50000x128 .f32) = hid2 m c :=
  (StableHlo.after_of_forall_not_mem (b := Proc.devRef .tc main_v40) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w4_v40 m ρ c)

theorem w5_arg8 (c : Dev nD) : (W5 m ρ c (Proc.devRef .tc main_arg8) : FVec Ideal S128x64 .f32) = (m ((c : Thread nD τ).loc main_arg8)) :=
  (StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w4_arg8 m ρ c)

theorem w5_arg9 (c : Dev nD) : (W5 m ρ c (Proc.devRef .tc main_arg9) : FVec Ideal S128x64 .f32) = (m ((c : Thread nD τ).loc main_arg9)) :=
  (StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (w4_arg9 m ρ c)

/-- The network's output. -/
def outK (c : Dev nD) : FVec Ideal S50000x64 .f32 :=
  Cert.Sage.affine (aggK (srcRow (m ((c : Thread nD τ).loc main_arg1))) (dstRow (m ((c : Thread nD τ).loc main_arg1))) (invCnt (dstRow (m ((c : Thread nD τ).loc main_arg1)))) (hid2 m c)) (hid2 m c) (m ((c : Thread nD τ).loc main_arg8)) (m ((c : Thread nD τ).loc main_arg9)) (biasRow64 (m ((c : Thread nD τ).loc main_arg10)))

/-! ## After the third region: the result -/

/-- The result buffer at the last boundary holds the three nested layers of the arguments. -/
theorem kernel_value (c : Dev nD) : (W6 m ρ c (Proc.devRef .tc main_v54) : FVec Ideal S50000x64 .f32) = outK m c := by
  refine (W6_arr m ρ c 5).trans ((region2_out (V5 m ρ) c).trans ?_)
  show Cert.Sage.affine (W5 m ρ c (Proc.devRef .tc main_v52)) (W5 m ρ c (Proc.devRef .tc main_v40)) (W5 m ρ c (Proc.devRef .tc main_arg8)) (W5 m ρ c (Proc.devRef .tc main_arg9))
    (fun j => (W5 m ρ c (Proc.devRef .tc main_v53) : S1x64.Idx → EReal) (ix2 (0 : Fin 1) j)) = _
  rw [w5_v52 m ρ c, w5_v40 m ρ c, w5_arg8 m ρ c, w5_arg9 m ρ c, w5_v53 m ρ c]
  rfl

end Cert.KernelIdeal.Hand

end
-- ==== Proof.KernelRun.lean ====
/-
  The idealized kernel's run with its result named.

  The program is three kernel regions among stretches of host operations.  Every weakly fair execution terminates, and
  in every final state each unscoped buffer holds what the fold through the program's segments leaves in it: the launch
  memory carried through the first host stretch, the first region's arrays replaced by what its write-backs leave, and so
  on to the last region.  Read at the result buffer this names the result; read at an argument it is the argument as
  launched.
-/
import proofs.«112834_j9483287789791_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.LibHostDot.lean ====
/-
  A host matrix product read at an index, on the extended reals.

  The product of an `[m, k]` matrix with a `[k, n]` matrix computed on the host (a `dot_general` with one contracted
  axis and no batch axis), read at `(p, c)`, is the sum over `x` of the left matrix at `(p, x)` times the right matrix
  at `(x, c)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibHostDot

open Idealize.ShloMosaic Idealize.ShloMosaic.ValueIdx

/-- A host matrix product read at `(p, c)`: the sum over the contracted coordinate `x` of the left operand at
    `(p, x)` times the right operand at `(x, c)`. -/
theorem hostDot_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    Host.dotGeneral d prec lhs rhs (ix2 p c) = ∑ x : Fin k, lhs (ix2 p x) * rhs (ix2 x c) := by
  simp only [Host.dotGeneral]
  rw [Ideal.dotGeneral_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibHostDot

end
-- ==== Proof.RefValue.lean ====
/-
  The reference network, layer by layer, on the extended reals.

  The reference is a three-layer graph network on 50000 nodes and 625000 directed edges.  The edge list is a
  2 × 625000 integer array: row 0 holds each edge's source node, row 1 its target node; a negative source is wrapped
  by adding 50000.  One layer takes node features H (50000 × 128) and computes

    S(r, ·)  = the sum of H(source(t), ·) over the edges t whose target is r        (segSum)
    c(r)     = max (the number of edges whose target is r) 1                          (cnt1)
    A(r, x)  = S(r, x) / c(r)                                                         (aggR)
    out(r,j) = (∑ₓ A(r, x) · Wl(x, j)) + (∑ₓ H(r, x) · Wr(x, j)) + b(j),

  followed by max · 0 on the two hidden layers (layerRelu) and by nothing on the output layer (layerOut, 64 columns).

  ref_term       the program's composed result term is layerOut ∘ layerRelu ∘ layerRelu of the launch arguments;
  aggR_apply     an entry of A is the quotient of the entry of S by the row's count;
  cnt1_ne_zero   a count raised to at least one is not zero;
  layerRelu_eq   a hidden layer is the entrywise affine map of (A, H) followed by max · 0;
  layerOut_eq    the output layer is the entrywise affine map of (A, H).
  The neighbour sum S and the count stay opaque: no lemma here looks inside the gather or the scatter.
-/
import proofs.«112834_j9483287789791_1_alg».proof.Proof.Gen.ReferenceIdeal.Read
import proofs.«112834_j9483287789791_1_alg».proof.Proof.SageSpec
import proofs.«112834_j9483287789791_1_alg».proof.Proof.LibHostDot
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-! ## The pieces of one layer -/

/-- Row 0 of the edge list: each edge's source node. -/
def srcRow (e : IVec S2x625000 32) : IVec S625000 32 :=
  shapeCast _ (extractStridedSlice S1x625000 ![0, 0] e slices_S2x625000_S1x625000_0_0) shapeCasts_S1x625000_S625000

/-- Row 1 of the edge list: each edge's target node. -/
def dstRow (e : IVec S2x625000 32) : IVec S625000 32 :=
  shapeCast _ (extractStridedSlice S1x625000 ![1, 0] e slices_S2x625000_S1x625000_1_0) shapeCasts_S1x625000_S625000

/-- The source nodes as a column of gather indices, a negative one wrapped by adding 50000. -/
def srcIdx (e : IVec S2x625000 32) : IVec S625000x1 32 :=
  broadcastInDim S625000x1 ![0] bcast_S625000_S625000x1_0 (select (cmpi .slt (srcRow e) (broadcastInDim S625000 ![] bcast_S_S625000 (constantI S_ 32 0#32))) (addi (srcRow e) (broadcastInDim S625000 ![] bcast_S_S625000 (constantI S_ 32 50000#32))) (srcRow e))

/-- The target nodes as a column of scatter indices. -/
def dstIdx (e : IVec S2x625000 32) : IVec S625000x1 32 :=
  broadcastInDim S625000x1 ![0] bcast_S625000_S625000x1_0 (dstRow e)

/-- The neighbour sum: row r is the sum of the rows H(source(t), ·) over the edges t with target r. -/
def segSum (e : IVec S2x625000 32) (h : FVec Ideal S50000x128 .f32) : FVec Ideal S50000x128 .f32 :=
  Host.scatterAdd scatter_S50000x128_S625000x1_S625000x128_1_0_0_1 (broadcastInDim S50000x128 ![] bcast_S_S50000x128 (constant (F := Ideal) S_ .f32 0x00000000#32)) (dstIdx e) (Host.gather gather_S50000x128_S625000x1_S625000x128_1_0_n_n_0_1_1128 h (srcIdx e))

/-- The neighbour count of each node, raised to at least one. -/
def cnt1 (e : IVec S2x625000 32) : FVec Ideal S50000 .f32 :=
  maximumf (Host.scatterAdd scatter_S50000_S625000x1_S625000_n_0_0_1 (broadcastInDim S50000 ![] bcast_S_S50000 (constant (F := Ideal) S_ .f32 0x00000000#32)) (dstIdx e) (broadcastInDim S625000 ![] bcast_S_S625000 (constant (F := Ideal) S_ .f32 0x3F800000#32))) (broadcastInDim S50000 ![] bcast_S_S50000 (constant (F := Ideal) S_ .f32 0x3F800000#32))

/-- The aggregated neighbour features: the neighbour sum divided, row by row, by the count. -/
def aggR (e : IVec S2x625000 32) (h : FVec Ideal S50000x128 .f32) : FVec Ideal S50000x128 .f32 :=
  Host.divf (F := Ideal) (segSum e h) (broadcastInDim S50000x128 ![0, 1] bcast_S50000x1_S50000x128_0_1 (broadcastInDim S50000x1 ![0] bcast_S50000_S50000x1_0 (cnt1 e)))

/-- A hidden layer: max (A · Wl + H · Wr + b) 0. -/
def layerRelu (e : IVec S2x625000 32) (h : FVec Ideal S50000x128 .f32) (Wl Wr : FVec Ideal S128x128 .f32) (b : FVec Ideal S128 .f32) :
    FVec Ideal S50000x128 .f32 :=
  maximumf (addf (addf (Host.dotGeneral (F := Ideal) dot_S50000x128_S128x128_S50000x128_1_0_0_1_n_n none (aggR e h) Wl) (Host.dotGeneral (F := Ideal) dot_S50000x128_S128x128_S50000x128_1_0_0_1_n_n none h Wr)) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))

/-- The output layer: A · Wl + H · Wr + b, with 64 columns. -/
def layerOut (e : IVec S2x625000 32) (h : FVec Ideal S50000x128 .f32) (Wl Wr : FVec Ideal S128x64 .f32) (b : FVec Ideal S64 .f32) :
    FVec Ideal S50000x64 .f32 :=
  addf (addf (Host.dotGeneral (F := Ideal) dot_S50000x128_S128x64_S50000x64_1_0_0_1_n_n none (aggR e h) Wl) (Host.dotGeneral (F := Ideal) dot_S50000x128_S128x64_S50000x64_1_0_0_1_n_n none h Wr)) (broadcastInDim S50000x64 ![0, 1] bcast_S1x64_S50000x64_0_1 (broadcastInDim S1x64 ![1] bcast_S64_S1x64_1 b))

/-! ## The program's result is three layers of the launch arguments -/

/-- The program's first hidden stage is a hidden layer of the node features. -/
theorem stage1_eq (x0 : FVec Ideal S50000x128 .f32) (x1 : IVec S2x625000 32) (x2 x3 : FVec Ideal S128x128 .f32) (x4 : FVec Ideal S128 .f32) :
    Cert.ReferenceIdeal.Read.val_main_v29 (F := Ideal) x0 x1 x2 x3 x4 = layerRelu x1 x0 x2 x3 x4 := rfl

/-- The program's second hidden stage is a hidden layer of the first. -/
theorem stage2_eq (x0 : FVec Ideal S50000x128 .f32) (x1 : IVec S2x625000 32) (x2 x3 : FVec Ideal S128x128 .f32) (x4 : FVec Ideal S128 .f32)
    (x5 x6 : FVec Ideal S128x128 .f32) (x7 : FVec Ideal S128 .f32) :
    Cert.ReferenceIdeal.Read.val_main_v55 (F := Ideal) x0 x1 x2 x3 x4 x5 x6 x7
      = layerRelu x1 (Cert.ReferenceIdeal.Read.val_main_v29 (F := Ideal) x0 x1 x2 x3 x4) x5 x6 x7 := rfl

/-- The program's last stage is the output layer of the second hidden stage. -/
theorem stage3_eq (x0 : FVec Ideal S50000x128 .f32) (x1 : IVec S2x625000 32) (x2 x3 : FVec Ideal S128x128 .f32) (x4 : FVec Ideal S128 .f32)
    (x5 x6 : FVec Ideal S128x128 .f32) (x7 : FVec Ideal S128 .f32) (x8 x9 : FVec Ideal S128x64 .f32) (x10 : FVec Ideal S64 .f32) :
    Cert.ReferenceIdeal.Read.val_main_v80 (F := Ideal) x0 x1 x2 x3 x4 x5 x6 x7 x8 x9 x10
      = layerOut x1 (Cert.ReferenceIdeal.Read.val_main_v55 (F := Ideal) x0 x1 x2 x3 x4 x5 x6 x7) x8 x9 x10 := rfl

/-- The composed term of the program's result is the output layer of the second hidden layer of the first hidden layer
    of the node features, each layer with its own two weight matrices and bias and all three with the one edge list. -/
theorem ref_term (m : (ℓ : Loc nD τ sig) → Buf (Elt Ideal) ℓ) (c : Dev nD) :
    Cert.ReferenceIdeal.Value.res_main_v80 (F := Ideal) m c =
      layerOut (m ((c.tc : Thread nD τ).loc main_arg1))
        (layerRelu (m ((c.tc : Thread nD τ).loc main_arg1))
          (layerRelu (m ((c.tc : Thread nD τ).loc main_arg1)) (m ((c.tc : Thread nD τ).loc main_arg0))
            (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9)) (m ((c.tc : Thread nD τ).loc main_arg10)) :=
  (Cert.ReferenceIdeal.Read.val_main_v80_eq (F := Ideal) m c).trans
    ((stage3_eq _ _ _ _ _ _ _ _ _ _ _).trans
      (congrArg (fun H => layerOut (m ((c.tc : Thread nD τ).loc main_arg1)) H (m ((c.tc : Thread nD τ).loc main_arg8)) (m ((c.tc : Thread nD τ).loc main_arg9)) (m ((c.tc : Thread nD τ).loc main_arg10)))
        ((stage2_eq _ _ _ _ _ _ _ _).trans
          (congrArg (fun H => layerRelu (m ((c.tc : Thread nD τ).loc main_arg1)) H (m ((c.tc : Thread nD τ).loc main_arg5)) (m ((c.tc : Thread nD τ).loc main_arg6)) (m ((c.tc : Thread nD τ).loc main_arg7)))
            (stage1_eq _ _ _ _ _)))))

/-! ## The aggregation at an entry -/

/-- The host's quotient of two arrays, at an entry, is the quotient of the entries. -/
theorem hostDivf_apply {s : Shape} {φ : FTy} (a b : FVec Ideal s φ) (i : s.Idx) :
    Host.divf (F := Ideal) a b i = Ideal.div (a i) (b i) := rfl

/-- An entry of the aggregated features is the entry of the neighbour sum divided by the row's count. -/
theorem aggR_apply (e : IVec S2x625000 32) (h : FVec Ideal S50000x128 .f32) (r : Fin 50000) (x : Fin 128) :
    aggR e h (ix2 r x) = Ideal.div (segSum e h (ix2 r x)) (cnt1 e (ix1 r)) := by
  unfold aggR
  refine (hostDivf_apply _ _ _).trans (congrArg (Ideal.div (segSum e h (ix2 r x))) ?_)
  refine (broadcastInDim_apply _ bcast_S50000x1_S50000x128_0_1 _ (ix2 r x) (ix2 r (0 : Fin 1)) (fun a => ?_)).trans ?_
  · match a with
    | ⟨0, _⟩ => show r.val = if (50000 : Nat) = 1 then 0 else r.val; rw [if_neg (by decide)]
    | ⟨1, _⟩ => show 0 = if (1 : Nat) = 1 then 0 else x.val; rw [if_pos rfl]
  · exact broadcastInDim_apply _ bcast_S50000_S50000x1_0 (cnt1 e) (ix2 r (0 : Fin 1)) (ix1 r) (fun a => match a with
      | ⟨0, _⟩ => by show r.val = if (50000 : Nat) = 1 then 0 else r.val; rw [if_neg (by decide)])

/-- The bit pattern 0x3F800000 denotes the extended real one: exponent field 127, zero fraction. -/
theorem ofBits_one_f32 : Ideal.ofBits .f32 0x3F800000#32 = 1 := by
  simp [Ideal.ofBits, Ideal.ieee]
  rw [← EReal.coe_mul]
  norm_num

/-- A node's count, raised to at least one, is not zero. -/
theorem cnt1_ne_zero (e : IVec S2x625000 32) (r : Fin 50000) : cnt1 e (ix1 r) ≠ 0 := by
  unfold cnt1
  rw [maximumf_apply]
  have h1 : broadcastInDim S50000 ![] bcast_S_S50000 (constant (F := Ideal) S_ .f32 0x3F800000#32) (ix1 r) = 1 :=
    (broadcastInDim_apply _ bcast_S_S50000 _ (ix1 r) ix0 (fun a => a.elim0)).trans ofBits_one_f32
  rw [h1]
  exact Cert.Sage.max_one_ne_zero _

/-! ## A layer at an entry -/

/-- The 128-column matrix product at an entry. -/
theorem dot128_apply (A : FVec Ideal S50000x128 .f32) (W : FVec Ideal S128x128 .f32) (r : Fin 50000) (j : Fin 128) :
    Host.dotGeneral (F := Ideal) dot_S50000x128_S128x128_S50000x128_1_0_0_1_n_n none A W (ix2 r j) = ∑ x : Fin 128, A (ix2 r x) * W (ix2 x j) :=
  Cert.LibHostDot.hostDot_apply dot_S50000x128_S128x128_S50000x128_1_0_0_1_n_n none A W rfl rfl
    Cert.ReferenceIdeal.Read.lhs_main_v24_0 Cert.ReferenceIdeal.Read.lhs_main_v24_1 Cert.ReferenceIdeal.Read.rhs_main_v24_0 Cert.ReferenceIdeal.Read.rhs_main_v24_1 r j

/-- The 64-column matrix product at an entry. -/
theorem dot64_apply (A : FVec Ideal S50000x128 .f32) (W : FVec Ideal S128x64 .f32) (r : Fin 50000) (j : Fin 64) :
    Host.dotGeneral (F := Ideal) dot_S50000x128_S128x64_S50000x64_1_0_0_1_n_n none A W (ix2 r j) = ∑ x : Fin 128, A (ix2 r x) * W (ix2 x j) :=
  Cert.LibHostDot.hostDot_apply dot_S50000x128_S128x64_S50000x64_1_0_0_1_n_n none A W rfl rfl
    Cert.ReferenceIdeal.Read.lhs_main_v75_0 Cert.ReferenceIdeal.Read.lhs_main_v75_1 Cert.ReferenceIdeal.Read.rhs_main_v75_0 Cert.ReferenceIdeal.Read.rhs_main_v75_1 r j

/-- The bias of a hidden layer, spread over the rows, at an entry. -/
theorem bias128_apply (b : FVec Ideal S128 .f32) (r : Fin 50000) (j : Fin 128) :
    broadcastInDim S50000x128 ![0, 1] bcast_S1x128_S50000x128_0_1 (broadcastInDim S1x128 ![1] bcast_S128_S1x128_1 b) (ix2 r j) = b (ix1 j) := by
  refine (broadcastInDim_apply _ bcast_S1x128_S50000x128_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (128 : Nat) = 1 then 0 else j.val; rw [if_neg (by decide)]
  · exact broadcastInDim_apply _ bcast_S128_S1x128_1 b (ix2 (0 : Fin 1) j) (ix1 j) (fun a => match a with
      | ⟨0, _⟩ => by show j.val = if (128 : Nat) = 1 then 0 else j.val; rw [if_neg (by decide)])

/-- The bias of the output layer, spread over the rows, at an entry. -/
theorem bias64_apply (b : FVec Ideal S64 .f32) (r : Fin 50000) (j : Fin 64) :
    broadcastInDim S50000x64 ![0, 1] bcast_S1x64_S50000x64_0_1 (broadcastInDim S1x64 ![1] bcast_S64_S1x64_1 b) (ix2 r j) = b (ix1 j) := by
  refine (broadcastInDim_apply _ bcast_S1x64_S50000x64_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (64 : Nat) = 1 then 0 else j.val; rw [if_neg (by decide)]
  · exact broadcastInDim_apply _ bcast_S64_S1x64_1 b (ix2 (0 : Fin 1) j) (ix1 j) (fun a => match a with
      | ⟨0, _⟩ => by show j.val = if (64 : Nat) = 1 then 0 else j.val; rw [if_neg (by decide)])

/-- The zero array a hidden layer is compared with, at an entry. -/
theorem zero128_apply (r : Fin 50000) (j : Fin 128) :
    broadcastInDim S50000x128 ![] bcast_S_S50000x128 (constant (F := Ideal) S_ .f32 0x00000000#32) (ix2 r j) = 0 :=
  (broadcastInDim_apply _ bcast_S_S50000x128 _ (ix2 r j) ix0 (fun a => a.elim0)).trans Ideal.ofBits_zero_f32

/-- A hidden layer is the entrywise affine map of the aggregated and the node features, followed by max · 0. -/
theorem layerRelu_eq (e : IVec S2x625000 32) (h : FVec Ideal S50000x128 .f32) (Wl Wr : FVec Ideal S128x128 .f32) (b : FVec Ideal S128 .f32) :
    layerRelu e h Wl Wr b = Cert.Sage.affineRelu (aggR e h) h Wl Wr (fun j => b (ix1 j)) := by
  funext i
  obtain ⟨r, j, rfl⟩ : ∃ (r : Fin 50000) (j : Fin 128), i = ix2 r j := ⟨i 0, i 1, eq_ix2 i⟩
  unfold layerRelu
  rw [maximumf_apply, addf_apply, addf_apply, dot128_apply, dot128_apply, bias128_apply, zero128_apply]
  rfl

/-- The output layer is the entrywise affine map of the aggregated and the node features. -/
theorem layerOut_eq (e : IVec S2x625000 32) (h : FVec Ideal S50000x128 .f32) (Wl Wr : FVec Ideal S128x64 .f32) (b : FVec Ideal S64 .f32) :
    layerOut e h Wl Wr b = Cert.Sage.affine (aggR e h) h Wl Wr (fun j => b (ix1 j)) := by
  funext i
  obtain ⟨r, j, rfl⟩ : ∃ (r : Fin 50000) (j : Fin 64), i = ix2 r j := ⟨i 0, i 1, eq_ix2 i⟩
  unfold layerOut
  rw [addf_apply, addf_apply, dot64_apply, dot64_apply, bias64_apply]
  rfl

end Cert.ReferenceIdeal.Hand

end
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.Bridge.lean ====
/-
  The two programs compute one function of their arguments.

  Both gather the node features along the source row of the edge list and add them into their destination nodes — the
  same gather and the same scatter, on the same index arrays —, and both count each node's neighbours the same way and
  raise the count to at least one.  The reference divides a node's sum by its raised count; the kernel multiplies it by
  the reciprocal of the raised count.  The raised count is at least one, so it is not zero, and for a nonzero divisor the
  product with the reciprocal is the quotient for every extended real.  The dense layers are then the same sums of
  products of the same operands, the bias read as a one-row matrix on one side and broadcast along the rows on the other.
-/
import proofs.«112834_j9483287789791_1_alg».proof.Defs
import proofs.«112834_j9483287789791_1_alg».proof.Proof.KernelHost
import proofs.«112834_j9483287789791_1_alg».proof.Proof.KernelRun
import proofs.«112834_j9483287789791_1_alg».proof.Proof.RefValue
import proofs.«112834_j9483287789791_1_alg».proof.Proof.LibUnitRow
import proofs.«112834_j9483287789791_1_alg».proof.Proof.Gen.Pre_finite_inputs

set_option maxRecDepth 16384

noncomputable section

namespace Cert.Bridge

open Idealize.ShloMosaic Idealize.ShloMosaic.TcCoe Idealize.SL.Sem Idealize.ShloMosaic.ValueIdx

/-- The per-node sums of the two programs are one term: the same gather along the source row, the same scatter into
    the destination nodes. -/
theorem segSum_eq (e : IVec Cert.ReferenceIdeal.S2x625000 32)
    (h : FVec Ideal Cert.ReferenceIdeal.S50000x128 .f32) :
    Cert.ReferenceIdeal.Hand.segSum e h = Cert.KernelIdeal.Hand.segSumK (Cert.KernelIdeal.Hand.srcRow e) (Cert.KernelIdeal.Hand.dstRow e) h := rfl

/-- The raised neighbour counts of the two programs are one term. -/
theorem cnt_eq (e : IVec Cert.ReferenceIdeal.S2x625000 32) :
    Cert.ReferenceIdeal.Hand.cnt1 e = Cert.KernelIdeal.Hand.cntK (Cert.KernelIdeal.Hand.dstRow e) := rfl

/-- Dividing a node's sum by its raised count is multiplying it by the reciprocal of the raised count. -/
theorem agg_eq (e : IVec Cert.ReferenceIdeal.S2x625000 32)
    (h : FVec Ideal Cert.ReferenceIdeal.S50000x128 .f32) :
    Cert.ReferenceIdeal.Hand.aggR e h = Cert.KernelIdeal.Hand.aggK (Cert.KernelIdeal.Hand.srcRow e) (Cert.KernelIdeal.Hand.dstRow e) (Cert.KernelIdeal.Hand.invCnt (Cert.KernelIdeal.Hand.dstRow e)) h := by
  funext i
  obtain ⟨r, x, rfl⟩ : ∃ (r : Fin 50000) (x : Fin 128), i = ix2 r x := ⟨i 0, i 1, eq_ix2 i⟩
  rw [Cert.ReferenceIdeal.Hand.aggR_apply, Cert.KernelIdeal.Hand.aggK_apply, segSum_eq, cnt_eq]
  exact (Cert.Sage.mul_one_div _ _ (Cert.KernelIdeal.Hand.cntK_ne_zero _ r)).symm

/-- A bias vector read along the row of its one-row matrix is the vector. -/
theorem biasRow128_eq (b : FVec Ideal Cert.KernelIdeal.S128 .f32) :
    Cert.KernelIdeal.Hand.biasRow128 b = fun j => b (ix1 j) :=
  funext fun j => Cert.LibUnitRow.unitRow_apply b _ 0 j
theorem biasRow64_eq (b : FVec Ideal Cert.KernelIdeal.S64 .f32) :
    Cert.KernelIdeal.Hand.biasRow64 b = fun j => b (ix1 j) :=
  funext fun j => Cert.LibUnitRow.unitRow_apply b _ 0 j

/-- From memories that agree on the arguments, the reference's result term is the kernel's three nested layers. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v80 (F := Ideal) m' c = Cert.KernelIdeal.Hand.outK m c := by
  rw [Cert.ReferenceIdeal.Hand.ref_term m' c, a0, a1, a2, a3, a4, a5, a6, a7, a8, a9, a10]
  rw [Cert.ReferenceIdeal.Hand.layerOut_eq, Cert.ReferenceIdeal.Hand.layerRelu_eq, Cert.ReferenceIdeal.Hand.layerRelu_eq]
  unfold Cert.KernelIdeal.Hand.outK Cert.KernelIdeal.Hand.hid2 Cert.KernelIdeal.Hand.hid1
  simp only [agg_eq, biasRow128_eq, biasRow64_eq]

end Cert.Bridge

namespace Cert.Proof.Claims

open Idealize.ShloMosaic Idealize.SL.Sem

/-- From memories agreeing on the arguments both idealized programs run, and end with the same result: the kernel's
    at its three nested layers, the reference's at its composed term, which is the same function of the arguments. -/
theorem algebraic : Cert.algebraic_KernelIdeal_ReferenceIdeal := by
  intro m ρ m' ρ' _ hagree
  refine ⟨fun c => Cert.KernelIdeal.Hand.outK m c, ?_, ?_⟩
  · exact (θ_run Cert.KernelIdeal.defs _ _).mono
      (fun r h c => ⟨(h c).1.trans (Cert.KernelIdeal.Hand.kernel_value m ρ c), (h c).2⟩) (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    exact Cert.Bridge.result_eq m m' c a0 a1 a2 a3 a4 a5 a6 a7 a8 a9 a10

end Cert.Proof.Claims

end
-- ==== Proof.lean ====
/-
  The certificate: the kernel and its idealization run and keep their arguments; the idealization rewrites nothing; and
  the idealized kernel and the idealized reference, from memories agreeing on the arguments, end with equal results.

  The program is a three-layer graph network.  Each layer averages every node's incoming neighbour features — a gather
  along the edges' source row, a sum into the destination nodes, a division by the neighbour count raised to at least
  one — and applies a dense layer to the average and the node's own features.  The kernel computes the dense layers in
  three regions of 25 row blocks each and multiplies by the reciprocal count where the reference divides by the count;
  on the extended reals these agree because the raised count is never zero.
-/
import proofs.«112834_j9483287789791_1_alg».proof.Defs
import proofs.«112834_j9483287789791_1_alg».proof.Proof.Gen.Kernel
import proofs.«112834_j9483287789791_1_alg».proof.Proof.Gen.Kernel.Skeleton
import proofs.«112834_j9483287789791_1_alg».proof.Proof.Gen.Kernel.Launch
import proofs.«112834_j9483287789791_1_alg».proof.Proof.Gen.Kernel.Points
import proofs.«112834_j9483287789791_1_alg».proof.Proof.Gen.Kernel.Frame
import proofs.«112834_j9483287789791_1_alg».proof.Proof.Gen.KernelIdeal
import proofs.«112834_j9483287789791_1_alg».proof.Proof.Gen.KernelIdeal.Skeleton
import proofs.«112834_j9483287789791_1_alg».proof.Proof.Gen.KernelIdeal.Launch
import proofs.«112834_j9483287789791_1_alg».proof.Proof.Gen.KernelIdeal.Points
import proofs.«112834_j9483287789791_1_alg».proof.Proof.Gen.KernelIdeal.Frame
import proofs.«112834_j9483287789791_1_alg».proof.Proof.Gen.ReferenceIdeal
import proofs.«112834_j9483287789791_1_alg».proof.Proof.Gen.ReferenceIdeal.Run
import proofs.«112834_j9483287789791_1_alg».proof.Proof.Gen.ReferenceIdeal.Read
import proofs.«112834_j9483287789791_1_alg».proof.Proof.Gen.Pre_finite_inputs
import proofs.«112834_j9483287789791_1_alg».proof.Proof.Bridge
import Idealize.ShloMosaic.Adequacy
import Idealize.ShloMosaic.Init

noncomputable section

namespace Cert.Proof

open Idealize.ShloMosaic Idealize.SL.Sem Cert.Kernel

/-- The three frames are the generated ones (the reference's is its generated run with the result dropped); the
    idealization rewrote no operation; the value claim is `Claims.algebraic`. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Claims.algebraic⟩

end Cert.Proof

end
